-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S100000x1x1024 : Shape := ⟨3, ![100000, 1, 1024]⟩
abbrev S100000x1024 : Shape := ⟨2, ![100000, 1024]⟩
abbrev S1024x512 : Shape := ⟨2, ![1024, 512]⟩
abbrev S512 : Shape := ⟨1, ![512]⟩
abbrev S_ : Shape := ⟨0, ![]⟩

class Facts : Prop where
  bcast_S_S100000x1x1024 : S_.BroadcastsInDim S100000x1x1024 (![] : Fin 0 → Fin S100000x1x1024.rank)
  reducesTo_S100000x1x1024_S_d0_1_2 : S100000x1x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S1024x512 .f32) (main_arg6 : FVec F S512 .f32) (main_arg7 : FVec F S1024x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg8 main_v33

def fn {F : FTy → Type} [FloatOps F] (main_arg0 : IVec S65536 32) (main_arg1 : FVec F S100000x1x1024 .f32) (main_arg2 : FVec F S100000x1024 .f32) (main_arg3 : FVec F S1024x512 .f32) (main_arg4 : FVec F S512 .f32) (main_arg5 : FVec F S1024x512 .f32) (main_arg6 : FVec F S512 .f32) (main_arg7 : FVec F S1024x512 .f32) (main_arg8 : FVec F S512 .f32) : IVec S_ 1 :=
  let main_v0 : FVec F S100000x1x1024 .f32 := Host.absf main_arg1
  let main_cst : FVec F S_ .f32 := constant S_ .f32 0x7F800000#32
  let main_v1 : FVec F S100000x1x1024 .f32 := broadcastInDim S100000x1x1024 ![] bcast_S_S100000x1x1024 main_cst
  let main_v2 : IVec S100000x1x1024 1 := cmpf .olt main_v0 main_v1
  let main_c : IVec S_ 1 := constantI S_ 1 1#1
  let main_v3 : IVec S_ 1 := (fun x v => Host.reduce IntOp.andi x v reducesTo_S100000x1x1024_S_d0_1_2 h_S_) main_v2 main_c
  let main_v4 : FVec F S100000x1024 .f32 := Host.absf main_arg2
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S65536 : Shape := ⟨1, ![65536]⟩
abbrev S100000x1x1024 : Shape := ⟨3, ![100000, 1, 1024]⟩
abbrev S100000x1024 : Shape := ⟨2, ![100000, 1024]⟩
abbrev S1024x512 : Shape := ⟨2, ![1024, 512]⟩
abbrev S512 : Shape := ⟨1, ![512]⟩
abbrev S_ : Shape := ⟨0, ![]⟩
abbrev S65536x1 : Shape := ⟨2, ![65536, 1]⟩
abbrev S65536x1x1024 : Shape := ⟨3, ![65536, 1, 1024]⟩
abbrev S65536x1024 : Shape := ⟨2, ![65536, 1024]⟩
abbrev S1024x1536 : Shape := ⟨2, ![1024, 1536]⟩
abbrev S1536 : Shape := ⟨1, ![1536]⟩
abbrev S1x1536 : Shape := ⟨2, ![1, 1536]⟩
abbrev S65536x512 : Shape := ⟨2, ![65536, 512]⟩
abbrev S1024x1024 : Shape := ⟨2, ![1024, 1024]⟩
abbrev S1024x1 : Shape := ⟨2, ![1024, 1]⟩

abbrev nBuf : Space → Nat
  | .hbm => 36
  | .vmem => 12
  | .smem => 0
  | _ => 0

abbrev bufTy : (tb : Table) → Fin (tcTables nBuf tb) → BufTy
  | .hbm, ⟨0, _⟩ => ⟨S65536, .i32⟩
  | .hbm, ⟨1, _⟩ => ⟨S100000x1x1024, .f32⟩
  | .hbm, ⟨2, _⟩ => ⟨S100000x1024, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1x1024, .f32⟩
  | .hbm, ⟨18, _⟩ => ⟨S_, .f32⟩
  | .hbm, ⟨19, _⟩ => ⟨S65536x1, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x1024, .f32⟩
  | .hbm, ⟨29, _⟩ => ⟨S1024x1536, .f32⟩
  | .hbm, ⟨30, _⟩ => ⟨S1024x1536, .bf16⟩
  | .hbm, ⟨31, _⟩ => ⟨S1536, .f32⟩
  | .hbm, ⟨32, _⟩ => ⟨S1x1536, .f32⟩
  | .hbm, ⟨33, _⟩ => ⟨S65536x512, .f32⟩
  | .hbm, ⟨34, _⟩ => ⟨S65536x512, .f32⟩
  | .hbm, ⟨35, _⟩ => ⟨S65536x512, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1536, .bf16⟩
  | .local _ .vmem, ⟨5, _⟩ => ⟨S1x1536, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x1x1024_S65536x1_d2 : S65536x1x1024.ReducesTo [2] S65536x1
  h_S_ : 0 < S_.numel
  concatenates_S1024x512_S1024x512_S1024x512_S1024x1536_d1 : Shape.Concatenates [S1024x512, S1024x512, S1024x512] S1024x1536 1
  bitsLt_bf16_f32 : FTy.bits .bf16 < FTy.bits .f32
  concatenates_S512_S512_S512_S1536_d0 : Shape.Concatenates [S512, S512, S512] S1536 0
  shapeCasts_S1536_S1x1536 : S1536.ShapeCasts S1x1536
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  inb_S1024x512_S1024x512_0_0 : ∀ a, (![0, 0] : Fin 2 → Nat) a + S1024x512.size a ≤ S1024x512.size a
  h_S1024x512 : 0 < S1024x512.numel
  slices_S1024x1536_o0_512_S1024x512 : S1024x1536.Slices ![0, 512] S1024x512
  slices_S1024x1536_o0_1024_S1024x512 : S1024x1536.Slices ![0, 1024] S1024x512
  gather_S100000x1x1024_S65536x1_S65536x1x1024_12_0_n_n_0_1_111024_wf : GatherDims.WF S100000x1x1024 S65536x1 S65536x1x1024 [1, 2] [0] [] [0] [] 1 ![1, 1, 1024]
  gather_S100000x1024_S65536x1_S65536x1024_1_0_n_n_0_1_11024_wf : GatherDims.WF S100000x1024 S65536x1 S65536x1024 [1] [0] [] [0] [] 1 ![1, 1024]
  dot_S1024x1024_S1024x1536_S1024x1536_1_0_0_1_n_n_wf : DotDims.WF S1024x1024 S1024x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .f32 = 32 ∨ (Rect.block (s := S65536x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1536.size a ≤ S1024x1536.size a
  hwx0_2 : ∀ i : grid0.Coords, EltTy.bits .bf16 = 32 ∨ (Rect.block (s := S1024x1536) S1024x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S65536x512.size a
  hwx0_4 : ∀ i : grid0.Coords, EltTy.bits .f32 = 32 ∨ (Rect.block (s := S65536x512) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S65536x512.size a
  hwx0_5 : ∀ i : grid0.Coords, EltTy.bits .f32 = 32 ∨ (Rect.block (s := S65536x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S65536x512.size a
  hwx0_6 : ∀ i : grid0.Coords, EltTy.bits .f32 = 32 ∨ (Rect.block (s := S65536x512) S1024x512.size (cc0_transform_6 i) (hinb0_6 i)).WholeWords (EltTy.packing .f32)

variable [Facts₀]

def gather_S100000x1x1024_S65536x1_S65536x1x1024_12_0_n_n_0_1_111024 : GatherDims S100000x1x1024 S65536x1 S65536x1x1024 where
  offsetDims := [1, 2]
  collapsedSliceDims := [0]
  operandBatchingDims := []
  startIndicesBatchingDims := []
  startIndexMap := [0]
  indexVectorDim := 1
  sliceSizes := ![1, 1, 1024]
  wf := gather_S100000x1x1024_S65536x1_S65536x1x1024_12_0_n_n_0_1_111024_wf
def gather_S100000x1024_S65536x1_S65536x1024_1_0_n_n_0_1_11024 : GatherDims S100000x1024 S65536x1 S65536x1024 where
  offsetDims := [1]
  collapsedSliceDims := [0]
  operandBatchingDims := []
  startIndicesBatchingDims := []
  startIndexMap := [0]
  indexVectorDim := 1
  sliceSizes := ![1, 1024]
  wf := gather_S100000x1024_S65536x1_S65536x1024_1_0_n_n_0_1_11024_wf
def dot_S1024x1024_S1024x1536_S1024x1536_1_0_0_1_n_n : DotDims S1024x1024 S1024x1536 S1024x1536 where
  lhsContracting := [1]
  rhsContracting := [0]
  lhsNonContracting := [0]
  rhsNonContracting := [1]
  lhsBatch := []
  rhsBatch := []
  wf := dot_S1024x1024_S1024x1536_S1024x1536_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536 : Shape := ⟨1, ![65536]⟩
abbrev S100000x1x1024 : Shape := ⟨3, ![100000, 1, 1024]⟩
abbrev S100000x1024 : Shape := ⟨2, ![100000, 1024]⟩
abbrev S1024x512 : Shape := ⟨2, ![1024, 512]⟩
abbrev S512 : Shape := ⟨1, ![512]⟩
abbrev S_ : Shape := ⟨0, ![]⟩
abbrev S65536x1 : Shape := ⟨2, ![65536, 1]⟩
abbrev S65536x1x1024 : Shape := ⟨3, ![65536, 1, 1024]⟩
abbrev S65536x1024 : Shape := ⟨2, ![65536, 1024]⟩
abbrev S65536x512 : Shape := ⟨2, ![65536, 512]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S65536, .i32⟩
  | .hbm, ⟨1, _⟩ => ⟨S100000x1x1024, .f32⟩
  | .hbm, ⟨2, _⟩ => ⟨S100000x1024, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1x1024, .f32⟩
  | .hbm, ⟨18, _⟩ => ⟨S_, .f32⟩
  | .hbm, ⟨19, _⟩ => ⟨S65536x1, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x512, .f32⟩
  | .hbm, ⟨32, _⟩ => ⟨S1x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S1x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S_, .f32⟩
  | .hbm, ⟨50, _⟩ => ⟨S65536x512, .f32⟩
  | .hbm, ⟨51, _⟩ => ⟨S65536x512, .f32⟩
  | .hbm, ⟨52, _⟩ => ⟨S_, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S1x512, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S65536x512, .f32⟩
  | .hbm, ⟨61, _⟩ => ⟨S_, .f32⟩
  | .hbm, ⟨62, _⟩ => ⟨S65536x512, .f32⟩
  | .hbm, ⟨63, _⟩ => ⟨S65536x512, .f32⟩
  | .hbm, ⟨64, _⟩ => ⟨S_, .f32⟩
  | .hbm, ⟨65, _⟩ => ⟨S65536x512, .f32⟩
  | .hbm, ⟨66, _⟩ => ⟨S65536x512, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x1x1024_S65536x1_d2 : S65536x1x1024.ReducesTo [2] S65536x1
  h_S_ : 0 < S_.numel
  bcast_S65536x1_S65536x1024_0_1 : S65536x1.BroadcastsInDim S65536x1024 (![0, 1] : Fin 2 → Fin S65536x1024.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  gather_S100000x1x1024_S65536x1_S65536x1x1024_12_0_n_n_0_1_111024_wf : GatherDims.WF S100000x1x1024 S65536x1 S65536x1x1024 [1, 2] [0] [] [0] [] 1 ![1, 1, 1024]
  gather_S100000x1024_S65536x1_S65536x1024_1_0_n_n_0_1_11024_wf : GatherDims.WF S100000x1024 S65536x1 S65536x1024 [1] [0] [] [0] [] 1 ![1, 1024]
  dot_S65536x1024_S1024x512_S65536x512_1_0_0_1_n_n_wf : DotDims.WF S65536x1024 S1024x512 S65536x512 [1] [0] [0] [1] [] []

variable [Facts₀]

def gather_S100000x1x1024_S65536x1_S65536x1x1024_12_0_n_n_0_1_111024 : GatherDims S100000x1x1024 S65536x1 S65536x1x1024 where
  offsetDims := [1, 2]
  collapsedSliceDims := [0]
  operandBatchingDims := []
  startIndicesBatchingDims := []
  startIndexMap := [0]
  indexVectorDim := 1
  sliceSizes := ![1, 1, 1024]
  wf := gather_S100000x1x1024_S65536x1_S65536x1x1024_12_0_n_n_0_1_111024_wf
def gather_S100000x1024_S65536x1_S65536x1024_1_0_n_n_0_1_11024 : GatherDims S100000x1024 S65536x1 S65536x1024 where
  offsetDims := [1]
  collapsedSliceDims := [0]
  operandBatchingDims := []
  startIndicesBatchingDims := []
  startIndexMap := [0]
  indexVectorDim := 1
  sliceSizes := ![1, 1024]
  wf := gather_S100000x1024_S65536x1_S65536x1024_1_0_n_n_0_1_11024_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.KernelFrame.lean ====
/-
  The frame of `Kernel`: @main is twenty-four host operations (two row gathers keyed by the node ids, a lane sum,
  two concatenations, a format change and a reshape) followed by one pipelined region over 64 blocks of 1024 batch rows.
  At each block the body reads the gathered embedding rows, the column of memory sums, the whole concatenated weight
  and the bias row, and overwrites the three output blocks whole. Nothing here depends on the float instance: the
  body's three stores each cover their buffer, so whatever the buffers held before is forgotten, the inputs'
  staging buffers are left as found, and no host operation writes an argument array.
-/
import proofs.«139069_j75935021793842_2_alg».proof.Proof.Gen.Kernel.Launch
import proofs.«139069_j75935021793842_2_alg».proof.Proof.Gen.Kernel.Skeleton
import proofs.«139069_j75935021793842_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations, in order. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its block index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is not
    fetched its block index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is not
    fetched its block index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is not
    fetched its block index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No window stages an argument array, so each is among the buffers that bypass the region and ends as the region found
    it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses: each a whole buffer -/

abbrev rEmb : Rect S1024x1024 := Rect.unit (s := S1024x1024) ![0, 0] S1024x1024.size inb_S1024x1024_S1024x1024_0_0
abbrev rMem : Rect S1024x1 := Rect.unit (s := S1024x1) ![0, 0] S1024x1.size inb_S1024x1_S1024x1_0_0
abbrev rW : Rect S1024x1536 := Rect.unit (s := S1024x1536) ![0, 0] S1024x1536.size inb_S1024x1536_S1024x1536_0_0
abbrev rBias : Rect S1x1536 := Rect.unit (s := S1x1536) ![0, 0] S1x1536.size inb_S1x1536_S1x1536_0_0
abbrev rOut : Rect S1024x512 := Rect.unit (s := S1024x512) ![0, 0] S1024x512.size inb_S1024x512_S1024x512_0_0

/-! ## What the body leaves in each output window's buffer -/

/-- The first output's buffer after the body: its one store, of the first 512 columns' payload, over the input blocks. -/
def outQ (x0 : Vec F S1024x1024 .f32) (x1 : Vec F S1024x1 .f32) (x2 : Vec F S1024x1536 .bf16) (x3 : Vec F S1x1536 .f32) : Vec F S1024x512 .f32 :=
  View.canon [⟨rOut, k0_pay2 (View.ld x0 rEmb) (View.ld x1 rMem) (View.ld x2 rW) (View.ld x3 rBias)⟩]
/-- The second output's buffer after the body: the middle 512 columns' payload. -/
def outS (x0 : Vec F S1024x1024 .f32) (x1 : Vec F S1024x1 .f32) (x2 : Vec F S1024x1536 .bf16) (x3 : Vec F S1x1536 .f32) : Vec F S1024x512 .f32 :=
  View.canon [⟨rOut, k0_pay3 (View.ld x0 rEmb) (View.ld x1 rMem) (View.ld x2 rW) (View.ld x3 rBias)⟩]
/-- The third output's buffer after the body: the last 512 columns' payload. -/
def outK (x0 : Vec F S1024x1024 .f32) (x1 : Vec F S1024x1 .f32) (x2 : Vec F S1024x1536 .bf16) (x3 : Vec F S1x1536 .f32) : Vec F S1024x512 .f32 :=
  View.canon [⟨rOut, k0_pay4 (View.ld x0 rEmb) (View.ld x1 rMem) (View.ld x2 rW) (View.ld x3 rBias)⟩]

/-- One store through the whole-buffer rectangle covers the buffer. -/
theorem coverOut (p0 : Vec F S1024x512 .f32) (y : S1024x512.Idx) :
    ∃ pc ∈ ([⟨rOut, p0⟩] : List (View.Piece (Elt F) S1024x512 .f32)), y ∈ pc.1.set :=
  View.cover_of_tiled [⟨rOut, p0⟩] S1024x512.size (by rfl) y

/-! ## The body's triple -/

set_option maxHeartbeats 1000000 in
/-- The body on whole staging buffers — the four inputs' at contents `x0 … x3`, the three outputs' at anything — runs to
    the continuation holding the inputs' as they were and each output's at its store's value over the inputs'. -/
theorem sound_kernel (c : Dev nD) (E : Set ℕ) (i : grid0.Coords)
    (arg1 : Memref sig .tc .vmem S1024x1024 .f32) (harg1 : arg1.IsWhole) (arg2 : Memref sig .tc .vmem S1024x1 .f32) (harg2 : arg2.IsWhole)
    (arg3 : Memref sig .tc .vmem S1024x1536 .bf16) (harg3 : arg3.IsWhole) (arg4 : Memref sig .tc .vmem S1x1536 .f32) (harg4 : arg4.IsWhole)
    (arg5 : Memref sig .tc .vmem S1024x512 .f32) (harg5 : arg5.IsWhole) (arg6 : Memref sig .tc .vmem S1024x512 .f32) (harg6 : arg6.IsWhole)
    (arg7 : Memref sig .tc .vmem S1024x512 .f32) (harg7 : arg7.IsWhole)
    (x0 : Vec F S1024x1024 .f32) (x1 : Vec F S1024x1 .f32) (x2 : Vec F S1024x1536 .bf16) (x3 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outQ x0 x1 x2 x3) ∗ owns (c : Thread nD τ) arg6 fullShare (outS x0 x1 x2 x3)
            ∗ owns (c : Thread nD τ) arg7 fullShare (outK x0 x1 x2 x3)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverOut _)
  isplitl [H5]
  · iexists _; isplitr
    swap; · iexact H5
    ipureintro
    exact View.read_writes_eq_canon _ _ _ (coverOut _)
  iexists _; isplitr
  swap; · iexact H6
  ipureintro
  exact View.read_writes_eq_canon _ _ _ (coverOut _)

/-! ## The pipeline's proof data -/

/-- The proof data of the pipeline on core `c`: the arrays as the region finds them; after the body at point `t` each
    input's buffer at its block and each output's at its store's value over the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outQ (iblk m c 0 t) (iblk m c 1 t) (iblk m c 2 t) (iblk m c 3 t)
    | ⟨5, _⟩ => outS (iblk m c 0 t) (iblk m c 1 t) (iblk m c 2 t) (iblk m c 3 t)
    | ⟨6, _⟩ => outK (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outQ (iblk m c 0 t) (iblk m c 1 t) (iblk m c 2 t) (iblk m c 3 t) := by dsimp only [dats]
theorem after5 (c : Dev nD) (t : Fin cfg0.N) : (dats m 0 c).after 5 t = outS (iblk m c 0 t) (iblk m c 1 t) (iblk m c 2 t) (iblk m c 3 t) := by dsimp only [dats]
theorem after6 (c : Dev nD) (t : Fin cfg0.N) : (dats m 0 c).after 6 t = outK (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, every array of the pipeline ending at what the
    write-backs of the proof data leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Frame

end
-- ==== Proof.KernelIdealFrame.lean ====
/-
  The frame of `KernelIdeal`: @main is twenty-four host operations (two row gathers keyed by the node ids, a lane sum,
  two concatenations, a format change and a reshape) followed by one pipelined region over 64 blocks of 1024 batch rows.
  At each block the body reads the gathered embedding rows, the column of memory sums, the whole concatenated weight
  and the bias row, and overwrites the three output blocks whole. Nothing here depends on the float instance: the
  body's three stores each cover their buffer, so whatever the buffers held before is forgotten, the inputs'
  staging buffers are left as found, and no host operation writes an argument array.
-/
import proofs.«139069_j75935021793842_2_alg».proof.Proof.Gen.KernelIdeal.Launch
import proofs.«139069_j75935021793842_2_alg».proof.Proof.Gen.KernelIdeal.Skeleton
import proofs.«139069_j75935021793842_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations, in order. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its block index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is not
    fetched its block index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is not
    fetched its block index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is not
    fetched its block index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No window stages an argument array, so each is among the buffers that bypass the region and ends as the region found
    it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses: each a whole buffer -/

abbrev rEmb : Rect S1024x1024 := Rect.unit (s := S1024x1024) ![0, 0] S1024x1024.size inb_S1024x1024_S1024x1024_0_0
abbrev rMem : Rect S1024x1 := Rect.unit (s := S1024x1) ![0, 0] S1024x1.size inb_S1024x1_S1024x1_0_0
abbrev rW : Rect S1024x1536 := Rect.unit (s := S1024x1536) ![0, 0] S1024x1536.size inb_S1024x1536_S1024x1536_0_0
abbrev rBias : Rect S1x1536 := Rect.unit (s := S1x1536) ![0, 0] S1x1536.size inb_S1x1536_S1x1536_0_0
abbrev rOut : Rect S1024x512 := Rect.unit (s := S1024x512) ![0, 0] S1024x512.size inb_S1024x512_S1024x512_0_0

/-! ## What the body leaves in each output window's buffer -/

/-- The first output's buffer after the body: its one store, of the first 512 columns' payload, over the input blocks. -/
def outQ (x0 : Vec F S1024x1024 .f32) (x1 : Vec F S1024x1 .f32) (x2 : Vec F S1024x1536 .bf16) (x3 : Vec F S1x1536 .f32) : Vec F S1024x512 .f32 :=
  View.canon [⟨rOut, k0_pay2 (View.ld x0 rEmb) (View.ld x1 rMem) (View.ld x2 rW) (View.ld x3 rBias)⟩]
/-- The second output's buffer after the body: the middle 512 columns' payload. -/
def outS (x0 : Vec F S1024x1024 .f32) (x1 : Vec F S1024x1 .f32) (x2 : Vec F S1024x1536 .bf16) (x3 : Vec F S1x1536 .f32) : Vec F S1024x512 .f32 :=
  View.canon [⟨rOut, k0_pay3 (View.ld x0 rEmb) (View.ld x1 rMem) (View.ld x2 rW) (View.ld x3 rBias)⟩]
/-- The third output's buffer after the body: the last 512 columns' payload. -/
def outK (x0 : Vec F S1024x1024 .f32) (x1 : Vec F S1024x1 .f32) (x2 : Vec F S1024x1536 .bf16) (x3 : Vec F S1x1536 .f32) : Vec F S1024x512 .f32 :=
  View.canon [⟨rOut, k0_pay4 (View.ld x0 rEmb) (View.ld x1 rMem) (View.ld x2 rW) (View.ld x3 rBias)⟩]

/-- One store through the whole-buffer rectangle covers the buffer. -/
theorem coverOut (p0 : Vec F S1024x512 .f32) (y : S1024x512.Idx) :
    ∃ pc ∈ ([⟨rOut, p0⟩] : List (View.Piece (Elt F) S1024x512 .f32)), y ∈ pc.1.set :=
  View.cover_of_tiled [⟨rOut, p0⟩] S1024x512.size (by rfl) y

/-! ## The body's triple -/

set_option maxHeartbeats 1000000 in
/-- The body on whole staging buffers — the four inputs' at contents `x0 … x3`, the three outputs' at anything — runs to
    the continuation holding the inputs' as they were and each output's at its store's value over the inputs'. -/
theorem sound_kernel (c : Dev nD) (E : Set ℕ) (i : grid0.Coords)
    (arg1 : Memref sig .tc .vmem S1024x1024 .f32) (harg1 : arg1.IsWhole) (arg2 : Memref sig .tc .vmem S1024x1 .f32) (harg2 : arg2.IsWhole)
    (arg3 : Memref sig .tc .vmem S1024x1536 .bf16) (harg3 : arg3.IsWhole) (arg4 : Memref sig .tc .vmem S1x1536 .f32) (harg4 : arg4.IsWhole)
    (arg5 : Memref sig .tc .vmem S1024x512 .f32) (harg5 : arg5.IsWhole) (arg6 : Memref sig .tc .vmem S1024x512 .f32) (harg6 : arg6.IsWhole)
    (arg7 : Memref sig .tc .vmem S1024x512 .f32) (harg7 : arg7.IsWhole)
    (x0 : Vec F S1024x1024 .f32) (x1 : Vec F S1024x1 .f32) (x2 : Vec F S1024x1536 .bf16) (x3 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outQ x0 x1 x2 x3) ∗ owns (c : Thread nD τ) arg6 fullShare (outS x0 x1 x2 x3)
            ∗ owns (c : Thread nD τ) arg7 fullShare (outK x0 x1 x2 x3)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverOut _)
  isplitl [H5]
  · iexists _; isplitr
    swap; · iexact H5
    ipureintro
    exact View.read_writes_eq_canon _ _ _ (coverOut _)
  iexists _; isplitr
  swap; · iexact H6
  ipureintro
  exact View.read_writes_eq_canon _ _ _ (coverOut _)

/-! ## The pipeline's proof data -/

/-- The proof data of the pipeline on core `c`: the arrays as the region finds them; after the body at point `t` each
    input's buffer at its block and each output's at its store's value over the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outQ (iblk m c 0 t) (iblk m c 1 t) (iblk m c 2 t) (iblk m c 3 t)
    | ⟨5, _⟩ => outS (iblk m c 0 t) (iblk m c 1 t) (iblk m c 2 t) (iblk m c 3 t)
    | ⟨6, _⟩ => outK (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outQ (iblk m c 0 t) (iblk m c 1 t) (iblk m c 2 t) (iblk m c 3 t) := by dsimp only [dats]
theorem after5 (c : Dev nD) (t : Fin cfg0.N) : (dats m 0 c).after 5 t = outS (iblk m c 0 t) (iblk m c 1 t) (iblk m c 2 t) (iblk m c 3 t) := by dsimp only [dats]
theorem after6 (c : Dev nD) (t : Fin cfg0.N) : (dats m 0 c).after 6 t = outK (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, every array of the pipeline ending at what the
    write-backs of the proof data leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Frame

end
-- ==== Proof.LibConcatCols.lean ====
/-
  GENERAL lemmas on matrices joined along their columns, read at an index, and on a sum over such a joined axis. Nothing
  here mentions a program; the extents are arbitrary.

  * concat2_cols_apply: an [R, a] matrix followed along the columns by an [R, b] matrix, read at (p, k): the first at
    (p, k) when k < a, the second at (p, k - a) otherwise.
  * concat3_cols_apply: the same for three matrices [R, a], [R, b], [R, c].
  * concat3_cols_fst / _snd / _thd: the same three matrices read at a column inside the first, the second and the third piece,
    the column given with its offset into the piece (no case split).
  * sum_257: a sum over 257 indices as the first 128, the next 128 and the last.
  * sum_split3: a sum over a + b + 1 indices is the sum over the first a, plus the sum over the next b, plus the last term, in
    any additive commutative monoid (so no finiteness is needed on extended reals).
-/
import Idealize.ShloMosaic.Lib.Pipeline.Value
import Idealize.ShloMosaic.Lib.ValueIdx
import Mathlib.Algebra.BigOperators.Fin

noncomputable section

namespace Cert.LibConcatCols

open Idealize.ShloMosaic Idealize.ShloMosaic.ValueIdx
open scoped BigOperators

variable {α : Type}

/-- Two matrices joined along the columns, read at (p, k). -/
theorem concat2_cols_apply {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (hn : n = a + b) (p : Fin R) (k : Fin n) :
    concatenate ⟨2, ![R, n]⟩ 1 [⟨⟨2, ![R, a]⟩, x⟩, ⟨⟨2, ![R, b]⟩, y⟩] h (ix2 p k)
      = if hk : k.val < a then x (ix2 p ⟨k.val, hk⟩) else y (ix2 p ⟨k.val - a, by have := k.isLt; omega⟩) := by
  split
  · next hk =>
    exact concatenate_pair_apply_left 1 x y h (ix2 p k) rfl (ix2 p ⟨k.val, hk⟩) (fun b => by
      match b with
      | ⟨0, _⟩ => rfl
      | ⟨1, _⟩ => rfl)
  · next hk =>
    exact concatenate_pair_apply_right 1 x y h (ix2 p k) rfl rfl (ix2 p ⟨k.val - a, by have := k.isLt; omega⟩) (fun b hb => by
      match b with
      | ⟨0, _⟩ => rfl
      | ⟨1, _⟩ => exact absurd rfl hb) (by show k.val - a + a = k.val; omega)

/-- Three matrices joined along the columns, read at (p, k). -/
theorem concat3_cols_apply {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (hn : n = a + b + c) (p : Fin R) (k : Fin n) :
    concatenate ⟨2, ![R, n]⟩ 1 [⟨⟨2, ![R, a]⟩, x⟩, ⟨⟨2, ![R, b]⟩, y⟩, ⟨⟨2, ![R, c]⟩, z⟩] h (ix2 p k)
      = if h1 : k.val < a then x (ix2 p ⟨k.val, h1⟩)
        else if h2 : k.val < a + b then y (ix2 p ⟨k.val - a, by omega⟩)
        else z (ix2 p ⟨k.val - a - b, by have := k.isLt; omega⟩) := by
  split
  · next h1 =>
    exact concatenate_apply_piece (t := ⟨2, ![R, n]⟩) 1 [⟨⟨2, ![R, a]⟩, x⟩, ⟨⟨2, ![R, b]⟩, y⟩, ⟨⟨2, ![R, c]⟩, z⟩] h (ix2 p k) 0 (by simp) ⟨2, ![R, a]⟩ x rfl rfl 0 rfl (ix2 p ⟨k.val, h1⟩) (fun q hq => by
      match q with
      | ⟨0, _⟩ => rfl
      | ⟨1, _⟩ => exact absurd rfl hq) (by show 0 + k.val = k.val; omega)
  · next h1 =>
    split
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 1 (by simp) ⟨2, ![R, b]⟩ y rfl rfl a rfl (ix2 p ⟨k.val - a, by omega⟩) (fun q hq => by
        match q with
        | ⟨0, _⟩ => rfl
        | ⟨1, _⟩ => exact absurd rfl hq) (by show a + (k.val - a) = k.val; omega)
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 2 (by simp) ⟨2, ![R, c]⟩ z rfl rfl (a + b) rfl
        (ix2 p ⟨k.val - a - b, by have := k.isLt; omega⟩) (fun q hq => by
        match q with
        | ⟨0, _⟩ => rfl
        | ⟨1, _⟩ => exact absurd rfl hq) (by show a + b + (k.val - a - b) = k.val; omega)

/-- Three matrices joined along the columns, read at a column k inside the first: k = i. -/
theorem concat3_cols_fst {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin a)
    (hk : k.val = i.val) :
    concatenate ⟨2, ![R, n]⟩ 1 [⟨⟨2, ![R, a]⟩, x⟩, ⟨⟨2, ![R, b]⟩, y⟩, ⟨⟨2, ![R, c]⟩, z⟩] h (ix2 p k) = x (ix2 p i) :=
  concatenate_apply_piece (t := ⟨2, ![R, n]⟩) 1 [⟨⟨2, ![R, a]⟩, x⟩, ⟨⟨2, ![R, b]⟩, y⟩, ⟨⟨2, ![R, c]⟩, z⟩] h _ 0 (by simp) ⟨2, ![R, a]⟩ x rfl rfl 0 rfl
    (ix2 p i) (fun q hq => by
      match q with
      | ⟨0, _⟩ => rfl
      | ⟨1, _⟩ => exact absurd rfl hq) (by show 0 + i.val = k.val; omega)

/-- Three matrices joined along the columns, read at a column k inside the second: k = a + i. -/
theorem concat3_cols_snd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin b)
    (hk : k.val = a + i.val) :
    concatenate ⟨2, ![R, n]⟩ 1 [⟨⟨2, ![R, a]⟩, x⟩, ⟨⟨2, ![R, b]⟩, y⟩, ⟨⟨2, ![R, c]⟩, z⟩] h (ix2 p k) = y (ix2 p i) :=
  concatenate_apply_piece (t := ⟨2, ![R, n]⟩) 1 [⟨⟨2, ![R, a]⟩, x⟩, ⟨⟨2, ![R, b]⟩, y⟩, ⟨⟨2, ![R, c]⟩, z⟩] h _ 1 (by simp) ⟨2, ![R, b]⟩ y rfl rfl a rfl
    (ix2 p i) (fun q hq => by
      match q with
      | ⟨0, _⟩ => rfl
      | ⟨1, _⟩ => exact absurd rfl hq) (by show a + i.val = k.val; omega)

/-- Three matrices joined along the columns, read at a column k inside the third: k = a + b + i. -/
theorem concat3_cols_thd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin c)
    (hk : k.val = a + b + i.val) :
    concatenate ⟨2, ![R, n]⟩ 1 [⟨⟨2, ![R, a]⟩, x⟩, ⟨⟨2, ![R, b]⟩, y⟩, ⟨⟨2, ![R, c]⟩, z⟩] h (ix2 p k) = z (ix2 p i) :=
  concatenate_apply_piece (t := ⟨2, ![R, n]⟩) 1 [⟨⟨2, ![R, a]⟩, x⟩, ⟨⟨2, ![R, b]⟩, y⟩, ⟨⟨2, ![R, c]⟩, z⟩] h _ 2 (by simp) ⟨2, ![R, c]⟩ z rfl rfl (a + b) rfl
    (ix2 p i) (fun q hq => by
      match q with
      | ⟨0, _⟩ => rfl
      | ⟨1, _⟩ => exact absurd rfl hq) (by show a + b + i.val = k.val; omega)

/-- A sum over 257 = 128 + 128 + 1 indices: the first 128, the next 128, the last one. -/
theorem sum_257 {M : Type*} [AddCommMonoid M] (f : Fin 257 → M) :
    ∑ k, f k = (∑ k : Fin 128, f ⟨k.val, by omega⟩) + (∑ k : Fin 128, f ⟨128 + k.val, by omega⟩) + f ⟨256, by omega⟩ := by
  show ∑ k : Fin (128 + 128 + 1), f k = _
  rw [Fin.sum_univ_castSucc, Fin.sum_univ_add]
  rfl

/-- A sum over a + b + 1 indices: the first a, the next b, the last one. -/
theorem sum_split3 {M : Type*} [AddCommMonoid M] (a b : ℕ) (f : Fin (a + b + 1) → M) :
    ∑ k, f k = (∑ k : Fin a, f ⟨k.val, by omega⟩) + (∑ k : Fin b, f ⟨a + k.val, by omega⟩) + f ⟨a + b, by omega⟩ := by
  rw [Fin.sum_univ_castSucc, Fin.sum_univ_add]
  rfl

end Cert.LibConcatCols

end
-- ==== Proof.LibConcatVec.lean ====
/-
  GENERAL lemmas on three vectors joined end to end, read at an index. Nothing here mentions a program; the lengths are
  arbitrary.

  * concat3_vec_fst / _snd / _thd: vectors of lengths a, b, c joined into one of length n, read at a position inside the
    first, the second and the third piece, the position given with its offset into the piece (no case split): position
    i of the first is position i of the whole, position i of the second is a + i, of the third a + b + i.
  Entries of any type: no arithmetic is involved.
-/
import Idealize.ShloMosaic.Lib.Pipeline.Value
import Idealize.ShloMosaic.Lib.ValueIdx

noncomputable section

namespace Cert.LibConcatVec

open Idealize.ShloMosaic Idealize.ShloMosaic.ValueIdx

variable {α : Type}

/-- Three vectors joined end to end, read at a position k inside the first: k = i. -/
theorem concat3_vec_fst {a b c n : ℕ} (x : (⟨1, ![a]⟩ : Shape).Idx → α) (y : (⟨1, ![b]⟩ : Shape).Idx → α)
    (z : (⟨1, ![c]⟩ : Shape).Idx → α)
    (h : Shape.Concatenates [⟨1, ![a]⟩, ⟨1, ![b]⟩, ⟨1, ![c]⟩] ⟨1, ![n]⟩ 0) (k : Fin n) (i : Fin a) (hk : k.val = i.val) :
    concatenate ⟨1, ![n]⟩ 0 [⟨⟨1, ![a]⟩, x⟩, ⟨⟨1, ![b]⟩, y⟩, ⟨⟨1, ![c]⟩, z⟩] h (ix1 k) = x (ix1 i) :=
  concatenate_apply_piece (t := ⟨1, ![n]⟩) 0 [⟨⟨1, ![a]⟩, x⟩, ⟨⟨1, ![b]⟩, y⟩, ⟨⟨1, ![c]⟩, z⟩] h _ 0 (by simp) ⟨1, ![a]⟩ x rfl rfl 0 rfl
    (ix1 i) (fun q hq => by
      match q with
      | ⟨0, _⟩ => exact absurd rfl hq) (by show 0 + i.val = k.val; omega)

/-- Three vectors joined end to end, read at a position k inside the second: k = a + i. -/
theorem concat3_vec_snd {a b c n : ℕ} (x : (⟨1, ![a]⟩ : Shape).Idx → α) (y : (⟨1, ![b]⟩ : Shape).Idx → α)
    (z : (⟨1, ![c]⟩ : Shape).Idx → α)
    (h : Shape.Concatenates [⟨1, ![a]⟩, ⟨1, ![b]⟩, ⟨1, ![c]⟩] ⟨1, ![n]⟩ 0) (k : Fin n) (i : Fin b) (hk : k.val = a + i.val) :
    concatenate ⟨1, ![n]⟩ 0 [⟨⟨1, ![a]⟩, x⟩, ⟨⟨1, ![b]⟩, y⟩, ⟨⟨1, ![c]⟩, z⟩] h (ix1 k) = y (ix1 i) :=
  concatenate_apply_piece (t := ⟨1, ![n]⟩) 0 [⟨⟨1, ![a]⟩, x⟩, ⟨⟨1, ![b]⟩, y⟩, ⟨⟨1, ![c]⟩, z⟩] h _ 1 (by simp) ⟨1, ![b]⟩ y rfl rfl a rfl
    (ix1 i) (fun q hq => by
      match q with
      | ⟨0, _⟩ => exact absurd rfl hq) (by show a + i.val = k.val; omega)

/-- Three vectors joined end to end, read at a position k inside the third: k = a + b + i. -/
theorem concat3_vec_thd {a b c n : ℕ} (x : (⟨1, ![a]⟩ : Shape).Idx → α) (y : (⟨1, ![b]⟩ : Shape).Idx → α)
    (z : (⟨1, ![c]⟩ : Shape).Idx → α)
    (h : Shape.Concatenates [⟨1, ![a]⟩, ⟨1, ![b]⟩, ⟨1, ![c]⟩] ⟨1, ![n]⟩ 0) (k : Fin n) (i : Fin c) (hk : k.val = a + b + i.val) :
    concatenate ⟨1, ![n]⟩ 0 [⟨⟨1, ![a]⟩, x⟩, ⟨⟨1, ![b]⟩, y⟩, ⟨⟨1, ![c]⟩, z⟩] h (ix1 k) = z (ix1 i) :=
  concatenate_apply_piece (t := ⟨1, ![n]⟩) 0 [⟨⟨1, ![a]⟩, x⟩, ⟨⟨1, ![b]⟩, y⟩, ⟨⟨1, ![c]⟩, z⟩] h _ 2 (by simp) ⟨1, ![c]⟩ z rfl rfl (a + b) rfl
    (ix1 i) (fun q hq => by
      match q with
      | ⟨0, _⟩ => exact absurd rfl hq) (by show a + b + i.val = k.val; omega)

end Cert.LibConcatVec

end
-- ==== Proof.EntryArrays.lean ====
/-
  What the region finds in the four arrays it reads, as functions of the argument arrays.

  The column of memory sums and the gathered embedding rows come out of the same host operations, in the same order, as in
  the reference program, so they are the reference's own stages of the node ids and the two banks: nothing of a gather is
  opened here. The weight the region reads is the three weight matrices joined along the columns (the change of float
  format is no change on extended reals); the bias row is the three bias vectors joined end to end and cast to one row.
-/
import proofs.«139069_j75935021793842_2_alg».proof.Proof.KernelIdealFrame
import proofs.«139069_j75935021793842_2_alg».proof.Proof.Gen.ReferenceIdeal.Read
import proofs.«139069_j75935021793842_2_alg».proof.Proof.LibConcatCols
import proofs.«139069_j75935021793842_2_alg».proof.Proof.LibConcatVec
import Idealize.ShloMosaic.Lib.StableHlo.Run
import Idealize.ShloMosaic.Lib.ValueLayout

noncomputable section

namespace Cert.KernelIdeal.Entry

open Cert.KernelIdeal Cert.KernelIdeal.Gen Cert.KernelIdeal.Frame
open Idealize.ShloMosaic Idealize.ShloMosaic.TcCoe Idealize.SL.Sem Idealize.ShloMosaic.StableHlo Idealize.ShloMosaic.ValueIdx

/-- A host operation over a literal family of THREE operands leaves, at its result, its function of each operand's contents
    at the operand's own reference. -/
theorem nary3_result {F : FTy → Type} [FloatOps F] {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The host operations' results in one pass, a three-operand operation included. -/
macro "entry_results" : tactic =>
  `(tactic| (simp (disch := decide) only [after_cons, after_nil,
      nullary_result', unary_result', binary_result', ternary_result', reshape_result', nary3_result,
      nullary_result_ne', unary_result_ne', binary_result_ne', ternary_result_ne', reshape_result_ne', nary_result_ne']))

variable (m : (ℓ : Loc nD τ sig) → Buf (Elt Ideal) ℓ) (c : Dev nD)

set_option maxHeartbeats 1000000 in
/-- The column of memory sums the region reads is the reference's stage of the node ids and the memory bank. -/
theorem memSums_eq : (V m c main_v7 : S65536x1.Idx → EReal)
    = Cert.ReferenceIdeal.Read.val_main_v7 (F := Ideal) (m ((c : Thread nD τ).loc main_arg0)) (m ((c : Thread nD τ).loc main_arg1)) := by
  dsimp only [V, hostOps0]
  after_results_simp
  rfl

set_option maxHeartbeats 1000000 in
/-- The gathered embedding rows the region reads are the reference's stage of the node ids and the embedding bank. -/
theorem embRows_eq : (V m c main_v14 : S65536x1024.Idx → EReal)
    = Cert.ReferenceIdeal.Read.val_main_v14 (F := Ideal) (m ((c : Thread nD τ).loc main_arg0)) (m ((c : Thread nD τ).loc main_arg2)) := by
  dsimp only [V, hostOps0]
  after_results_simp
  rfl

set_option maxHeartbeats 1000000 in
/-- The weight the region reads: the three weight matrices joined along the columns. -/
theorem weight_eq : (V m c main_v16 : S1024x1536.Idx → EReal)
    = truncf (F := Ideal) .bf16 (concatenate S1024x1536 1 [⟨S1024x512, m ((c : Thread nD τ).loc main_arg3)⟩, ⟨S1024x512, m ((c : Thread nD τ).loc main_arg5)⟩,
        ⟨S1024x512, m ((c : Thread nD τ).loc main_arg7)⟩] concatenates_S1024x512_S1024x512_S1024x512_S1024x1536_d1) bitsLt_bf16_f32 := by
  dsimp only [V, hostOps0]
  entry_results
  rfl

set_option maxHeartbeats 1000000 in
/-- The bias row the region reads: the three bias vectors joined end to end, as one row. -/
theorem biasRow_eq : (V m c main_v18 : S1x1536.Idx → EReal)
    = shapeCast S1x1536 (concatenate S1536 0 [⟨S512, m ((c : Thread nD τ).loc main_arg4)⟩, ⟨S512, m ((c : Thread nD τ).loc main_arg6)⟩,
        ⟨S512, m ((c : Thread nD τ).loc main_arg8)⟩] concatenates_S512_S512_S512_S1536_d0) shapeCasts_S1536_S1x1536 := by
  dsimp only [V, hostOps0]
  entry_results
  rfl

/-- Column q of gate Q's weight sits at column 0 + q of the joined weight. -/
theorem weightQ_at (k : Fin 1024) (q : Fin 512) :
    (V m c main_v16 : S1024x1536.Idx → EReal) (ix2 k (⟨0 + q.val, by omega⟩ : Fin 1536))
      = (m ((c : Thread nD τ).loc main_arg3) : S1024x512.Idx → EReal) (ix2 k q) := by
  rw [weight_eq]
  show concatenate S1024x1536 1 [⟨S1024x512, m ((c : Thread nD τ).loc main_arg3)⟩, ⟨S1024x512, m ((c : Thread nD τ).loc main_arg5)⟩,
      ⟨S1024x512, m ((c : Thread nD τ).loc main_arg7)⟩] concatenates_S1024x512_S1024x512_S1024x512_S1024x1536_d1 (ix2 k _) = _
  exact Cert.LibConcatCols.concat3_cols_fst _ _ _ concatenates_S1024x512_S1024x512_S1024x512_S1024x1536_d1 k _ q (by show 0 + q.val = q.val; omega)

/-- Entry q of gate Q's bias sits at column 0 + q of the bias row. -/
theorem biasQ_at (q : Fin 512) :
    (V m c main_v18 : S1x1536.Idx → EReal) (ix2 (0 : Fin 1) (⟨0 + q.val, by omega⟩ : Fin 1536))
      = (m ((c : Thread nD τ).loc main_arg4) : S512.Idx → EReal) (ix1 q) := by
  rw [biasRow_eq]
  refine (shapeCast_a_1a_apply _ shapeCasts_S1536_S1x1536 0 _).trans ?_
  exact Cert.LibConcatVec.concat3_vec_fst _ _ _ _ _ q (by show 0 + q.val = q.val; omega)

/-- Column q of gate S's weight sits at column 512 + q of the joined weight. -/
theorem weightS_at (k : Fin 1024) (q : Fin 512) :
    (V m c main_v16 : S1024x1536.Idx → EReal) (ix2 k (⟨512 + q.val, by omega⟩ : Fin 1536))
      = (m ((c : Thread nD τ).loc main_arg5) : S1024x512.Idx → EReal) (ix2 k q) := by
  rw [weight_eq]
  show concatenate S1024x1536 1 [⟨S1024x512, m ((c : Thread nD τ).loc main_arg3)⟩, ⟨S1024x512, m ((c : Thread nD τ).loc main_arg5)⟩,
      ⟨S1024x512, m ((c : Thread nD τ).loc main_arg7)⟩] concatenates_S1024x512_S1024x512_S1024x512_S1024x1536_d1 (ix2 k _) = _
  exact Cert.LibConcatCols.concat3_cols_snd _ _ _ concatenates_S1024x512_S1024x512_S1024x512_S1024x1536_d1 k _ q rfl

/-- Entry q of gate S's bias sits at column 512 + q of the bias row. -/
theorem biasS_at (q : Fin 512) :
    (V m c main_v18 : S1x1536.Idx → EReal) (ix2 (0 : Fin 1) (⟨512 + q.val, by omega⟩ : Fin 1536))
      = (m ((c : Thread nD τ).loc main_arg6) : S512.Idx → EReal) (ix1 q) := by
  rw [biasRow_eq]
  refine (shapeCast_a_1a_apply _ shapeCasts_S1536_S1x1536 0 _).trans ?_
  exact Cert.LibConcatVec.concat3_vec_snd _ _ _ _ _ q rfl

/-- Column q of gate K's weight sits at column 1024 + q of the joined weight. -/
theorem weightK_at (k : Fin 1024) (q : Fin 512) :
    (V m c main_v16 : S1024x1536.Idx → EReal) (ix2 k (⟨1024 + q.val, by omega⟩ : Fin 1536))
      = (m ((c : Thread nD τ).loc main_arg7) : S1024x512.Idx → EReal) (ix2 k q) := by
  rw [weight_eq]
  show concatenate S1024x1536 1 [⟨S1024x512, m ((c : Thread nD τ).loc main_arg3)⟩, ⟨S1024x512, m ((c : Thread nD τ).loc main_arg5)⟩,
      ⟨S1024x512, m ((c : Thread nD τ).loc main_arg7)⟩] concatenates_S1024x512_S1024x512_S1024x512_S1024x1536_d1 (ix2 k _) = _
  exact Cert.LibConcatCols.concat3_cols_thd _ _ _ concatenates_S1024x512_S1024x512_S1024x512_S1024x1536_d1 k _ q rfl

/-- Entry q of gate K's bias sits at column 1024 + q of the bias row. -/
theorem biasK_at (q : Fin 512) :
    (V m c main_v18 : S1x1536.Idx → EReal) (ix2 (0 : Fin 1) (⟨1024 + q.val, by omega⟩ : Fin 1536))
      = (m ((c : Thread nD τ).loc main_arg8) : S512.Idx → EReal) (ix1 q) := by
  rw [biasRow_eq]
  refine (shapeCast_a_1a_apply _ shapeCasts_S1536_S1x1536 0 _).trans ?_
  exact Cert.LibConcatVec.concat3_vec_thd _ _ _ _ _ q rfl

end Cert.KernelIdeal.Entry

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«139069_j75935021793842_2_alg».proof.Proof.LibMatmulRows
import proofs.«139069_j75935021793842_2_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibExpLog.lean ====
/-
  GENERAL lemmas on the exponential, the logarithm and the logistic function of the extended reals, with the exact
  ("ideal") float operations. Nothing here mentions a program.

  * log_exp: log (exp x) = x for EVERY extended real x — exp sends -inf to 0 and log sends 0 back to -inf, +inf is fixed
    by both, and on a real number it is the real identity. (The other composition, exp (log x) = x, fails below 0.)
  * add_sub_cancel_isR: (a + b) - b = a when a and b are real numbers (with an infinite b the difference is a junk value).
  * logistic_spelled: 1 / (1 + exp (-x)), the 1 written as its f32 word and the quotient the extended reals' quotient, is
    the logistic function at every x, the infinities included.
  It imports LibMoments.lean of the same directory (the predicate "is a real number" and the f32 word of 1), so copy the two
  together.
-/
import Idealize.ShloMosaic.PureOps.Ideal
import proofs.«139069_j75935021793842_2_alg».proof.Proof.LibMoments

noncomputable section

namespace Cert.LibExpLog

open Idealize.ShloMosaic Cert.LibMoments

/-- The logarithm undoes the exponential on all of the extended reals. -/
theorem log_exp (x : EReal) : Ideal.log (Ideal.exp x) = x := by
  induction x using EReal.rec with
  | bot => rw [Ideal.exp_bot, ← EReal.coe_zero, Ideal.log_coe, if_pos le_rfl]
  | coe r => rw [Ideal.exp_coe, Ideal.log_coe, if_neg (not_le.mpr (Real.exp_pos r)), Real.log_exp]
  | top => rw [Ideal.exp_top, Ideal.log_top]

/-- Adding and then subtracting a real number leaves a real number as it was. -/
theorem add_sub_cancel_isR {a b : EReal} (ha : IsR a) (hb : IsR b) : a + b - b = a := by
  obtain ⟨x, rfl⟩ := ha
  obtain ⟨y, rfl⟩ := hb
  rw [← EReal.coe_add, ← EReal.coe_sub, add_sub_cancel_right]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LibExpLog

end
-- ==== Proof.GateSpec.lean ====
/-
  The three gates of the node update, as functions on extended reals. Nothing here mentions a program.

  Every batch row r carries a scalar, the sum of its node's memory row, and a vector of D features, its node's embedding
  row. The layer's input at (r, k) is the scalar of row r plus feature k of row r. A gate is the logistic function of an
  affine layer of that input: entry (r, o) is  logistic( sum over k of (ms r + eg (r, k)) * W (k, o)  +  b o ).
  The three gates differ only in the weight matrix and the bias.

  Row r of a gate depends only on row r of the two inputs, so a gate computed on a block of consecutive rows is that block
  of rows of the gate of the whole batch. No law of extended-real arithmetic is used beyond that, so nothing here needs
  finite entries.
-/
import Idealize.ShloMosaic.PureOps.Ideal
import Idealize.ShloMosaic.Lib.ValueIdx
import proofs.«139069_j75935021793842_2_alg».proof.Proof.LibDenseLayers
import proofs.«139069_j75935021793842_2_alg».proof.Proof.LibExpLog

noncomputable section

namespace Cert.NodeGates

open Idealize.ShloMosaic Idealize.ShloMosaic.ValueIdx Cert.LibDenseLayers
open scoped BigOperators

/-- The layer's input: the row's scalar added to every feature of the row. -/
def layerIn {B D : ℕ} (ms : (⟨2, ![B, 1]⟩ : Shape).Idx → EReal) (eg : (⟨2, ![B, D]⟩ : Shape).Idx → EReal) :
    (⟨2, ![B, D]⟩ : Shape).Idx → EReal :=
  fun i => ms (ix2 (i 0) (0 : Fin 1)) + eg (ix2 (i 0) (i 1))

theorem layerIn_ix2 {B D : ℕ} (ms : (⟨2, ![B, 1]⟩ : Shape).Idx → EReal) (eg : (⟨2, ![B, D]⟩ : Shape).Idx → EReal)
    (p : Fin B) (k : Fin D) : layerIn ms eg (ix2 p k) = ms (ix2 p (0 : Fin 1)) + eg (ix2 p k) := rfl

/-- A gate: the logistic function of the affine layer of the layer's input. -/
def gate {B D O : ℕ} (ms : (⟨2, ![B, 1]⟩ : Shape).Idx → EReal) (eg : (⟨2, ![B, D]⟩ : Shape).Idx → EReal)
    (W : (⟨2, ![D, O]⟩ : Shape).Idx → EReal) (b : (⟨1, ![O]⟩ : Shape).Idx → EReal) : (⟨2, ![B, O]⟩ : Shape).Idx → EReal :=
  fun i => Ideal.logistic (affineAt (layerIn ms eg) W b (i 0) (i 1))

theorem gate_ix2 {B D O : ℕ} (ms : (⟨2, ![B, 1]⟩ : Shape).Idx → EReal) (eg : (⟨2, ![B, D]⟩ : Shape).Idx → EReal)
    (W : (⟨2, ![D, O]⟩ : Shape).Idx → EReal) (b : (⟨1, ![O]⟩ : Shape).Idx → EReal) (p : Fin B) (q : Fin O) :
    gate ms eg W b (ix2 p q) = Ideal.logistic (affineAt (layerIn ms eg) W b p q) := rfl

/-- Row p of the layer's input of a block is row p' of the layer's input of the batch when the block's row p holds the
    batch's row p' of both inputs. -/
theorem layerIn_row {B B' D : ℕ} (ms : (⟨2, ![B, 1]⟩ : Shape).Idx → EReal) (eg : (⟨2, ![B, D]⟩ : Shape).Idx → EReal)
    (ms' : (⟨2, ![B', 1]⟩ : Shape).Idx → EReal) (eg' : (⟨2, ![B', D]⟩ : Shape).Idx → EReal) (p : Fin B) (p' : Fin B')
    (hms : ms (ix2 p (0 : Fin 1)) = ms' (ix2 p' (0 : Fin 1))) (heg : ∀ k : Fin D, eg (ix2 p k) = eg' (ix2 p' k)) (k : Fin D) :
    layerIn ms eg (ix2 p k) = layerIn ms' eg' (ix2 p' k) := by
  rw [layerIn_ix2, layerIn_ix2, hms, heg k]

/-- The affine layer read at (p, q) when the weight and the bias are a column block of wider ones: column q of the
    block is column q' of the wide matrix and entry q' of the wide bias. -/
theorem affineAt_cols {R K N N' : ℕ} (h : (⟨2, ![R, K]⟩ : Shape).Idx → EReal)
    (W : (⟨2, ![K, N]⟩ : Shape).Idx → EReal) (b : (⟨1, ![N]⟩ : Shape).Idx → EReal)
    (W' : (⟨2, ![K, N']⟩ : Shape).Idx → EReal) (b' : (⟨1, ![N']⟩ : Shape).Idx → EReal) (p : Fin R) (q : Fin N) (q' : Fin N')
    (hW : ∀ k : Fin K, W' (ix2 k q') = W (ix2 k q)) (hb : b' (ix1 q') = b (ix1 q)) :
    affineAt h W' b' p q' = affineAt h W b p q := by
  unfold affineAt
  rw [hb]
  exact congrArg (· + b (ix1 q)) (Finset.sum_congr rfl fun k _ => by rw [hW k])

/-- The quotient 1 / (1 + exp (-a)) in the host's spelling, the two 1s as float words, is the logistic function of a. -/
theorem logistic_host (a : EReal) :
    FloatOps.hostDivf (F := Ideal) (φ := .f32) (FloatOps.ofBits .f32 0x3F800000#32)
      (FloatOps.addf (FloatOps.ofBits .f32 0x3F800000#32) (FloatOps.hostUnary .exp (FloatOps.hostNegf a))) = Ideal.logistic a :=
  Cert.LibExpLog.logistic_spelled a

end Cert.NodeGates

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«139069_j75935021793842_2_alg».proof.Proof.LibMatmulRows
import proofs.«139069_j75935021793842_2_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.BlockGate.lean ====
/-
  What the body computes on one block of 1024 batch rows, entry by entry, on extended reals.

  The body adds the block's column of memory sums to every lane of the block's embedding rows, multiplies by the joined
  weight into a zero accumulator and adds the bias row: entry (p, c) of that is the affine layer of the layer's input,
  row p against column c of the joined weight plus entry c of the bias row. Each of the three stored values is the
  logistic function of 512 consecutive columns of it. A change of float format is no change here.
-/
import proofs.«139069_j75935021793842_2_alg».proof.Proof.Gen.KernelIdeal.Skeleton
import proofs.«139069_j75935021793842_2_alg».proof.Proof.GateSpec
import proofs.«139069_j75935021793842_2_alg».proof.Proof.LibRowBias
import proofs.«139069_j75935021793842_2_alg».proof.Proof.LibLayout
import Idealize.ShloMosaic.Lib.Pipeline.Value
import Idealize.ShloMosaic.Lib.ValueIdx

noncomputable section

namespace Cert.KernelIdeal.BlockGate

open Cert.KernelIdeal Cert.KernelIdeal.Gen
open Idealize.ShloMosaic Idealize.ShloMosaic.ValueIdx Cert.LibDenseLayers Cert.LibRowBias Cert.NodeGates

/-- The body's one matrix product: the lanes of the left operand against the rows of the right. -/
abbrev D := dot_S1024x1024_S1024x1536_S1024x1536_1_0_0_1_n_n

theorem lhs0 (i : S1024x1536.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs1 (i : S1024x1536.Idx) (q : D.contr.Idx) : (D.lhsIdx i q 1).val = (q ⟨0, by decide⟩).val :=
  D.lhsIdx_val_of_single rfl i q
theorem rhs0 (i : S1024x1536.Idx) (q : D.contr.Idx) : (D.rhsIdx i q 0).val = (q ⟨0, by decide⟩).val :=
  D.rhsIdx_val_of_single rfl i q
theorem rhs1 (i : S1024x1536.Idx) (q : D.contr.Idx) : (D.rhsIdx i q 1).val = (i 1).val := by
  unfold DotDims.rhsIdx
  rw [dif_neg (show ¬(1 : Fin S1024x1536.rank) ∈ D.rhsBatch by decide), dif_pos (show (1 : Fin S1024x1536.rank) ∈ D.rhsNonContracting by decide)]
  rfl

/-- The value the three stores slice, at (p, c): row p of the layer's input against column c of the joined weight, plus
    entry c of the bias row. -/
theorem preact_at (v0 : Vec Ideal S1024x1024 .f32) (v2 : Vec Ideal S1024x1 .f32) (v7 : Vec Ideal S1024x1536 .bf16) (v10 : Vec Ideal S1x1536 .f32)
    (p : Fin 1024) (c : Fin 1536) :
    k0_pay1 (F := Ideal) v0 v2 v7 v10 (ix2 p c) = affineAt (layerIn v2 v0) v7 (rowOf v10) p c := by
  unfold k0_pay1
  show matmul D none (truncf .bf16 (addf (broadcastTo S1024x1024 (shapeCast S1024x1 v2 shapeCasts_S1024x1_S1024x1) broadcasts_S1024x1_S1024x1024)
        (shapeCast S1024x1024 v0 shapeCasts_S1024x1024_S1024x1024)) bitsLt_bf16_f32)
      (shapeCast S1024x1536 v7 shapeCasts_S1024x1536_S1024x1536) (constant (F := Ideal) S1024x1536 .f32 0x00000000#32) (ix2 p c)
    + broadcastTo S1024x1536 (shapeCast S1x1536 v10 shapeCasts_S1x1536_S1x1536) broadcasts_S1x1536_S1024x1536 (ix2 p c) = _
  refine (affineAt_of_matmul_row D rfl rfl lhs0 lhs1 rhs0 rhs1 shapeCasts_S1x1536_S1x1536 broadcasts_S1x1536_S1024x1536 _ _ v10 p c).trans ?_
  simp only [shapeCast_self]
  refine affineAt_congr _ _ v7 (rowOf v10) p p (fun k => ?_) c
  show broadcastTo S1024x1024 v2 broadcasts_S1024x1_S1024x1024 (ix2 p k) + v0 (ix2 p k) = layerIn v2 v0 (ix2 p k)
  rw [Cert.LibLayout.broadcastTo_a1_ab_apply]
  rfl

/-- The logistic function of 512 columns of that value starting at column off, at (p, q). -/
theorem gate_slice (off : ℕ) (hoff : off + 512 ≤ 1536) (hs : S1024x1536.Slices ![0, off] S1024x512)
    (v0 : Vec Ideal S1024x1024 .f32) (v2 : Vec Ideal S1024x1 .f32) (v7 : Vec Ideal S1024x1536 .bf16) (v10 : Vec Ideal S1x1536 .f32)
    (p : Fin 1024) (q : Fin 512) :
    logistic (extractStridedSlice S1024x512 ![0, off] (k0_pay1 (F := Ideal) v0 v2 v7 v10) hs) (ix2 p q)
      = Ideal.logistic (affineAt (layerIn v2 v0) v7 (rowOf v10) p (⟨off + q.val, by omega⟩ : Fin 1536)) := by
  show Ideal.logistic (extractStridedSlice S1024x512 ![0, off] (k0_pay1 (F := Ideal) v0 v2 v7 v10) hs (ix2 p q)) = _
  refine congrArg Ideal.logistic ?_
  refine (extractStridedSlice_apply ![0, off] _ hs (ix2 p q) (ix2 p (⟨off + q.val, by omega⟩ : Fin 1536)) (fun a => ?_)).trans
    (preact_at v0 v2 v7 v10 p _)
  match a with
  | ⟨0, _⟩ => show p.val = 0 + p.val; omega
  | ⟨1, _⟩ => rfl

/-- The first stored value: columns 0 … 511. -/
theorem storedQ_at (v0 : Vec Ideal S1024x1024 .f32) (v2 : Vec Ideal S1024x1 .f32) (v7 : Vec Ideal S1024x1536 .bf16) (v10 : Vec Ideal S1x1536 .f32)
    (p : Fin 1024) (q : Fin 512) :
    k0_pay2 (F := Ideal) v0 v2 v7 v10 (ix2 p q) = Ideal.logistic (affineAt (layerIn v2 v0) v7 (rowOf v10) p (⟨0 + q.val, by omega⟩ : Fin 1536)) := by
  unfold k0_pay2
  exact gate_slice 0 (by omega) slices_S1024x1536_o0_0_S1024x512 v0 v2 v7 v10 p q

/-- The second stored value: columns 512 … 1023. -/
theorem storedS_at (v0 : Vec Ideal S1024x1024 .f32) (v2 : Vec Ideal S1024x1 .f32) (v7 : Vec Ideal S1024x1536 .bf16) (v10 : Vec Ideal S1x1536 .f32)
    (p : Fin 1024) (q : Fin 512) :
    k0_pay3 (F := Ideal) v0 v2 v7 v10 (ix2 p q) = Ideal.logistic (affineAt (layerIn v2 v0) v7 (rowOf v10) p (⟨512 + q.val, by omega⟩ : Fin 1536)) := by
  unfold k0_pay3
  exact gate_slice 512 (by omega) slices_S1024x1536_o0_512_S1024x512 v0 v2 v7 v10 p q

/-- The third stored value: columns 1024 … 1535. -/
theorem storedK_at (v0 : Vec Ideal S1024x1024 .f32) (v2 : Vec Ideal S1024x1 .f32) (v7 : Vec Ideal S1024x1536 .bf16) (v10 : Vec Ideal S1x1536 .f32)
    (p : Fin 1024) (q : Fin 512) :
    k0_pay4 (F := Ideal) v0 v2 v7 v10 (ix2 p q) = Ideal.logistic (affineAt (layerIn v2 v0) v7 (rowOf v10) p (⟨1024 + q.val, by omega⟩ : Fin 1536)) := by
  unfold k0_pay4
  exact gate_slice 1024 (by omega) slices_S1024x1536_o0_1024_S1024x512 v0 v2 v7 v10 p q

/-- The first stored value of a block at (p, q) is the batch's gate at (r, q) when the block's row p holds row r of the
    batch's two inputs and columns 0 … 511 of the block's weight and bias row hold the gate's weight and bias. -/
theorem blockQ_law (b0 : Vec Ideal S1024x1024 .f32) (b1 : Vec Ideal S1024x1 .f32) (b2 : Vec Ideal S1024x1536 .bf16) (b3 : Vec Ideal S1x1536 .f32)
    (ms : (⟨2, ![65536, 1]⟩ : Shape).Idx → EReal) (eg : (⟨2, ![65536, 1024]⟩ : Shape).Idx → EReal)
    (W : (⟨2, ![1024, 512]⟩ : Shape).Idx → EReal) (b : (⟨1, ![512]⟩ : Shape).Idx → EReal)
    (p : Fin 1024) (q : Fin 512) (r : Fin 65536)
    (hms : b1 (ix2 p (0 : Fin 1)) = ms (ix2 r (0 : Fin 1))) (heg : ∀ k : Fin 1024, b0 (ix2 p k) = eg (ix2 r k))
    (hW : ∀ k : Fin 1024, b2 (ix2 k (⟨0 + q.val, by omega⟩ : Fin 1536)) = W (ix2 k q))
    (hb : b3 (ix2 (0 : Fin 1) (⟨0 + q.val, by omega⟩ : Fin 1536)) = b (ix1 q)) :
    k0_pay2 (F := Ideal) b0 b1 b2 b3 (ix2 p q) = gate ms eg W b (ix2 r q) := by
  rw [storedQ_at, gate_ix2]
  refine congrArg Ideal.logistic ?_
  refine (affineAt_congr (layerIn b1 b0) (layerIn ms eg) b2 (rowOf b3) p r (fun k => layerIn_row b1 b0 ms eg p r hms heg k) _).trans ?_
  exact affineAt_cols (layerIn ms eg) W b b2 (rowOf b3) r q _ hW hb

/-- The second stored value of a block at (p, q) is the batch's gate at (r, q) when the block's row p holds row r of the
    batch's two inputs and columns 512 … 1023 of the block's weight and bias row hold the gate's weight and bias. -/
theorem blockS_law (b0 : Vec Ideal S1024x1024 .f32) (b1 : Vec Ideal S1024x1 .f32) (b2 : Vec Ideal S1024x1536 .bf16) (b3 : Vec Ideal S1x1536 .f32)
    (ms : (⟨2, ![65536, 1]⟩ : Shape).Idx → EReal) (eg : (⟨2, ![65536, 1024]⟩ : Shape).Idx → EReal)
    (W : (⟨2, ![1024, 512]⟩ : Shape).Idx → EReal) (b : (⟨1, ![512]⟩ : Shape).Idx → EReal)
    (p : Fin 1024) (q : Fin 512) (r : Fin 65536)
    (hms : b1 (ix2 p (0 : Fin 1)) = ms (ix2 r (0 : Fin 1))) (heg : ∀ k : Fin 1024, b0 (ix2 p k) = eg (ix2 r k))
    (hW : ∀ k : Fin 1024, b2 (ix2 k (⟨512 + q.val, by omega⟩ : Fin 1536)) = W (ix2 k q))
    (hb : b3 (ix2 (0 : Fin 1) (⟨512 + q.val, by omega⟩ : Fin 1536)) = b (ix1 q)) :
    k0_pay3 (F := Ideal) b0 b1 b2 b3 (ix2 p q) = gate ms eg W b (ix2 r q) := by
  rw [storedS_at, gate_ix2]
  refine congrArg Ideal.logistic ?_
  refine (affineAt_congr (layerIn b1 b0) (layerIn ms eg) b2 (rowOf b3) p r (fun k => layerIn_row b1 b0 ms eg p r hms heg k) _).trans ?_
  exact affineAt_cols (layerIn ms eg) W b b2 (rowOf b3) r q _ hW hb

/-- The third stored value of a block at (p, q) is the batch's gate at (r, q) when the block's row p holds row r of the
    batch's two inputs and columns 1024 … 1535 of the block's weight and bias row hold the gate's weight and bias. -/
theorem blockK_law (b0 : Vec Ideal S1024x1024 .f32) (b1 : Vec Ideal S1024x1 .f32) (b2 : Vec Ideal S1024x1536 .bf16) (b3 : Vec Ideal S1x1536 .f32)
    (ms : (⟨2, ![65536, 1]⟩ : Shape).Idx → EReal) (eg : (⟨2, ![65536, 1024]⟩ : Shape).Idx → EReal)
    (W : (⟨2, ![1024, 512]⟩ : Shape).Idx → EReal) (b : (⟨1, ![512]⟩ : Shape).Idx → EReal)
    (p : Fin 1024) (q : Fin 512) (r : Fin 65536)
    (hms : b1 (ix2 p (0 : Fin 1)) = ms (ix2 r (0 : Fin 1))) (heg : ∀ k : Fin 1024, b0 (ix2 p k) = eg (ix2 r k))
    (hW : ∀ k : Fin 1024, b2 (ix2 k (⟨1024 + q.val, by omega⟩ : Fin 1536)) = W (ix2 k q))
    (hb : b3 (ix2 (0 : Fin 1) (⟨1024 + q.val, by omega⟩ : Fin 1536)) = b (ix1 q)) :
    k0_pay4 (F := Ideal) b0 b1 b2 b3 (ix2 p q) = gate ms eg W b (ix2 r q) := by
  rw [storedK_at, gate_ix2]
  refine congrArg Ideal.logistic ?_
  refine (affineAt_congr (layerIn b1 b0) (layerIn ms eg) b2 (rowOf b3) p r (fun k => layerIn_row b1 b0 ms eg p r hms heg k) _).trans ?_
  exact affineAt_cols (layerIn ms eg) W b b2 (rowOf b3) r q _ hW hb

end Cert.KernelIdeal.BlockGate

end
-- ==== Proof.GateValue.lean ====
/-
  What the idealized kernel leaves in its three result arrays: the three gates of the region-entry arrays.

  Point t of the grid reads rows 1024·t … 1024·t + 1023 of the gathered embedding rows and of the column of memory sums, and
  the whole joined weight and bias row, and writes back rows 1024·t … 1024·t + 1023 of each result. A gate's row depends
  only on that row of its inputs, so what point t writes back is block t of the gate of the whole batch; the 64 blocks
  cover the 65536 rows, so each result array ends holding its gate. The arguments end as launched.
-/
import proofs.«139069_j75935021793842_2_alg».proof.Proof.KernelIdealFrame
import proofs.«139069_j75935021793842_2_alg».proof.Proof.EntryArrays
import proofs.«139069_j75935021793842_2_alg».proof.Proof.BlockGate
import proofs.«139069_j75935021793842_2_alg».proof.Proof.GateSpec
import Idealize.ShloMosaic.Lib.Pipeline.Value

noncomputable section

namespace Cert.KernelIdeal.GateValue

open Cert.KernelIdeal Cert.KernelIdeal.Gen Cert.KernelIdeal.Frame Cert.KernelIdeal.Entry Cert.KernelIdeal.BlockGate
open Idealize.ShloMosaic Idealize.ShloMosaic.TcCoe Idealize.SL.Sem Idealize.ShloMosaic.ValueIdx Cert.NodeGates
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 64 points: the row-blocked windows sit at block (t, 0), the weight and the bias row at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as entries of the region-entry arrays -/

/-- Entry x of the embedding block at point t is entry (1024·t + x 0, x 1) of the gathered rows. -/
theorem embBlock_apply (c : Dev nD) (t : Fin cfg0.N) (x : S1024x1024.Idx) (k : S65536x1024.Idx)
    (hk0 : (k 0).val = t.val * 1024 + (x 0).val) (hk1 : (k 1).val = (x 1).val) :
    (iblk m c 0 t : Vec Ideal S1024x1024 .f32) x = (V m c main_v14 : S65536x1024.Idx → EReal) k := by
  obtain ⟨e0, e1, -⟩ := idx_facts t
  unfold iblk
  rw [View.read_apply]
  show V m c main_v14 (((cfg0.win 0).blk t).view.emb x) = V m c main_v14 k
  have h : ((cfg0.win 0).blk t).view.emb x = k := by
    funext a; apply Fin.ext
    match a with
    | ⟨0, _⟩ => show win0_0.index t (0 : Fin 2) * 1024 + 1 * (x 0).val = (k 0).val; rw [e0, hk0]; omega
    | ⟨1, _⟩ => show win0_0.index t (1 : Fin 2) * 1024 + 1 * (x 1).val = (k 1).val; rw [e1, hk1]; omega
  rw [h]

/-- Entry x of the memory-sum block at point t is entry (1024·t + x 0, x 1) of the column of sums. -/
theorem memBlock_apply (c : Dev nD) (t : Fin cfg0.N) (x : S1024x1.Idx) (k : S65536x1.Idx)
    (hk0 : (k 0).val = t.val * 1024 + (x 0).val) (hk1 : (k 1).val = (x 1).val) :
    (iblk m c 1 t : Vec Ideal S1024x1 .f32) x = (V m c main_v7 : S65536x1.Idx → EReal) k := by
  obtain ⟨-, -, e0, e1, -⟩ := idx_facts t
  unfold iblk
  rw [View.read_apply]
  show V m c main_v7 (((cfg0.win 1).blk t).view.emb x) = V m c main_v7 k
  have h : ((cfg0.win 1).blk t).view.emb x = k := by
    funext a; apply Fin.ext
    match a with
    | ⟨0, _⟩ => show win0_1.index t (0 : Fin 2) * 1024 + 1 * (x 0).val = (k 0).val; rw [e0, hk0]; omega
    | ⟨1, _⟩ => show win0_1.index t (1 : Fin 2) * 1 + 1 * (x 1).val = (k 1).val; rw [e1, hk1]; omega
  rw [h]

/-- The weight block at every point is the whole joined weight. -/
theorem weightBlock_apply (c : Dev nD) (t : Fin cfg0.N) (x : S1024x1536.Idx) :
    (iblk m c 2 t : Vec Ideal S1024x1536 .bf16) x = (V m c main_v16 : S1024x1536.Idx → EReal) x := by
  obtain ⟨-, -, -, -, e0, e1, -⟩ := idx_facts t
  unfold iblk
  rw [View.read_apply]
  show V m c main_v16 (((cfg0.win 2).blk t).view.emb x) = V m c main_v16 x
  have h : ((cfg0.win 2).blk t).view.emb x = x := by
    funext a; apply Fin.ext
    match a with
    | ⟨0, _⟩ => show win0_2.index t (0 : Fin 2) * 1024 + 1 * (x 0).val = (x 0).val; rw [e0]; omega
    | ⟨1, _⟩ => show win0_2.index t (1 : Fin 2) * 1536 + 1 * (x 1).val = (x 1).val; rw [e1]; omega
  rw [h]

/-- The bias block at every point is the whole bias row. -/
theorem biasBlock_apply (c : Dev nD) (t : Fin cfg0.N) (x : S1x1536.Idx) :
    (iblk m c 3 t : Vec Ideal S1x1536 .f32) x = (V m c main_v18 : S1x1536.Idx → EReal) x := by
  obtain ⟨-, -, -, -, -, -, e0, e1, -⟩ := idx_facts t
  unfold iblk
  rw [View.read_apply]
  show V m c main_v18 (((cfg0.win 3).blk t).view.emb x) = V m c main_v18 x
  have h : ((cfg0.win 3).blk t).view.emb x = x := by
    funext a; apply Fin.ext
    match a with
    | ⟨0, _⟩ => show win0_3.index t (0 : Fin 2) * 1 + 1 * (x 0).val = (x 0).val; rw [e0]; omega
    | ⟨1, _⟩ => show win0_3.index t (1 : Fin 2) * 1536 + 1 * (x 1).val = (x 1).val; rw [e1]; omega
  rw [h]

/-! ## Result Q -/

/-- The gate result Q ends holding, over the region-entry arrays. -/
abbrev GQ (c : Dev nD) : S65536x512.Idx → EReal :=
  gate (V m c main_v7 : S65536x1.Idx → EReal) (V m c main_v14 : S65536x1024.Idx → EReal)
    ((m ((c : Thread nD τ).loc main_arg3)) : S1024x512.Idx → EReal) ((m ((c : Thread nD τ).loc main_arg4)) : S512.Idx → EReal)

/-- Entry j of what the body stores for result Q at point t is the gate at the entry of the array that j's place in
    block t is. -/
theorem blockQ (c : Dev nD) (t : Fin cfg0.N) (j : S1024x512.Idx) :
    k0_pay2 (F := Ideal) (iblk m c 0 t) (iblk m c 1 t) (iblk m c 2 t) (iblk m c 3 t) j
      = GQ m c (((cfg0.win 4).blk t).view.emb j) := by
  obtain ⟨p, q, rfl⟩ : ∃ (p : Fin 1024) (q : Fin 512), j = ix2 p q := ⟨j 0, j 1, eq_ix2 j⟩
  have hN : cfg0.N = 64 := N_0
  have ht : t.val < 64 := hN ▸ t.isLt
  have hr : t.val * 1024 + p.val < 65536 := by have := p.isLt; omega
  have hemb : ((cfg0.win 4).blk t).view.emb (ix2 p q) = ix2 (⟨t.val * 1024 + p.val, hr⟩ : Fin 65536) q := by
    have e0 : win0_4.index t (0 : Fin 2) = t.val := by have := idx_facts t; tauto
    have e1 : win0_4.index t (1 : Fin 2) = 0 := by have := idx_facts t; tauto
    funext a; apply Fin.ext
    match a with
    | ⟨0, _⟩ => show win0_4.index t (0 : Fin 2) * 1024 + 1 * p.val = t.val * 1024 + p.val; rw [e0]; omega
    | ⟨1, _⟩ => show win0_4.index t (1 : Fin 2) * 512 + 1 * q.val = q.val; rw [e1]; omega
  rw [hemb]
  refine blockQ_law (iblk m c 0 t) (iblk m c 1 t) (iblk m c 2 t) (iblk m c 3 t) _ _ _ _ p q ⟨t.val * 1024 + p.val, hr⟩ ?_ (fun k => ?_) (fun k => ?_) ?_
  · exact memBlock_apply m c t (ix2 p (0 : Fin 1)) (ix2 (⟨t.val * 1024 + p.val, hr⟩ : Fin 65536) (0 : Fin 1)) rfl rfl
  · exact embBlock_apply m c t (ix2 p k) (ix2 (⟨t.val * 1024 + p.val, hr⟩ : Fin 65536) k) rfl rfl
  · exact (weightBlock_apply m c t _).trans (weightQ_at m c k q)
  · exact (biasBlock_apply m c t _).trans (biasQ_at m c q)

/-- The same, as one function of the block's index. -/
theorem blockQ_fun (c : Dev nD) (t : Fin cfg0.N) :
    (k0_pay2 (F := Ideal) (iblk m c 0 t) (iblk m c 1 t) (iblk m c 2 t) (iblk m c 3 t) : S1024x512.Idx → EReal)
      = fun j => GQ m c (((cfg0.win 4).blk t).view.emb j) :=
  funext (blockQ m c t)

/-- Writing back a block that holds an array's entries at the block's places is reading the block off that array. -/
theorem cut_readQ (t : Fin cfg0.N) (G : S65536x512.Idx → EReal) :
    (cfg0.win 4).cut (grid0.coords t) (fun j => G (((cfg0.win 4).blk t).view.emb j)) = ((cfg0.win 4).blk t).view.read (Elt Ideal) G := rfl

/-- What point t writes back to result Q is block t of the gate. -/
theorem flushedQ_eq (c : Dev nD) (t : Fin cfg0.N) :
    (dats m 0 c).flushed 4 t = ((cfg0.win 4).blk t).view.read (Elt Ideal) (GQ m c) := by
  show (cfg0.win 4).cut (grid0.coords t) ((dats m 0 c).after 4 t) = _
  rw [after4]
  unfold outQ
  rw [View.canon_unit_zero hz]
  simp only [View.ld_unit_zero (S := S1024x1024) hz, View.ld_unit_zero (S := S1024x1) hz, View.ld_unit_zero (S := S1024x1536) hz,
    View.ld_unit_zero (S := S1x1536) hz]
  rw [blockQ_fun m c t]
  exact cut_readQ t (GQ m c)

/-- An index of result Q's array is in point t's block iff each coordinate is in the block's range on its axis. -/
theorem mem_blkQ (t : Fin cfg0.N) (i : S65536x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v19_0).slice (win0_4.rect t)).set ↔ _
  rw [View.set_slice_whole, Rect.mem_set_unit]
  exact Iff.rfl

/-- Row r of result Q is in the block of point r / 1024. -/
theorem coverQ (i : S65536x512.Idx) : ∃ t : Fin cfg0.N, (cfg0.win 4).flush t = true ∧ i ∈ ((cfg0.win 4).blk t).view.set := by
  have hi0 : (i 0).val < 65536 := (i 0).isLt
  have hi1 : (i 1).val < 512 := (i 1).isLt
  have hN : cfg0.N = 64 := N_0
  obtain ⟨t, ht⟩ : ∃ t : Fin cfg0.N, t.val = (i 0).val / 1024 := ⟨⟨(i 0).val / 1024, by rw [hN]; omega⟩, rfl⟩
  have e0 : win0_4.index t (0 : Fin 2) = t.val := by have := idx_facts t; tauto
  have e1 : win0_4.index t (1 : Fin 2) = 0 := by have := idx_facts t; tauto
  refine ⟨t, flush0_4 t, ?_⟩
  rw [mem_blkQ]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 512 ≤ (i 1).val ∧ (i 1).val < win0_4.index t (1 : Fin 2) * 512 + 512; rw [e1]; omega

/-- Result Q's array after the run is the gate. -/
theorem finalQ (c : Dev nD) : (dats m 0 c).arrAt 4 cfg0.N = GQ m c :=
  (dats m 0 c).arrAt_eq_of_cover 4 (GQ m c) (fun t _ => flushedQ_eq m c t) coverQ

/-! ## Result S -/

/-- The gate result S ends holding, over the region-entry arrays. -/
abbrev GS (c : Dev nD) : S65536x512.Idx → EReal :=
  gate (V m c main_v7 : S65536x1.Idx → EReal) (V m c main_v14 : S65536x1024.Idx → EReal)
    ((m ((c : Thread nD τ).loc main_arg5)) : S1024x512.Idx → EReal) ((m ((c : Thread nD τ).loc main_arg6)) : S512.Idx → EReal)

/-- Entry j of what the body stores for result S at point t is the gate at the entry of the array that j's place in
    block t is. -/
theorem blockS (c : Dev nD) (t : Fin cfg0.N) (j : S1024x512.Idx) :
    k0_pay3 (F := Ideal) (iblk m c 0 t) (iblk m c 1 t) (iblk m c 2 t) (iblk m c 3 t) j
      = GS m c (((cfg0.win 5).blk t).view.emb j) := by
  obtain ⟨p, q, rfl⟩ : ∃ (p : Fin 1024) (q : Fin 512), j = ix2 p q := ⟨j 0, j 1, eq_ix2 j⟩
  have hN : cfg0.N = 64 := N_0
  have ht : t.val < 64 := hN ▸ t.isLt
  have hr : t.val * 1024 + p.val < 65536 := by have := p.isLt; omega
  have hemb : ((cfg0.win 5).blk t).view.emb (ix2 p q) = ix2 (⟨t.val * 1024 + p.val, hr⟩ : Fin 65536) q := by
    have e0 : win0_5.index t (0 : Fin 2) = t.val := by have := idx_facts t; tauto
    have e1 : win0_5.index t (1 : Fin 2) = 0 := by have := idx_facts t; tauto
    funext a; apply Fin.ext
    match a with
    | ⟨0, _⟩ => show win0_5.index t (0 : Fin 2) * 1024 + 1 * p.val = t.val * 1024 + p.val; rw [e0]; omega
    | ⟨1, _⟩ => show win0_5.index t (1 : Fin 2) * 512 + 1 * q.val = q.val; rw [e1]; omega
  rw [hemb]
  refine blockS_law (iblk m c 0 t) (iblk m c 1 t) (iblk m c 2 t) (iblk m c 3 t) _ _ _ _ p q ⟨t.val * 1024 + p.val, hr⟩ ?_ (fun k => ?_) (fun k => ?_) ?_
  · exact memBlock_apply m c t (ix2 p (0 : Fin 1)) (ix2 (⟨t.val * 1024 + p.val, hr⟩ : Fin 65536) (0 : Fin 1)) rfl rfl
  · exact embBlock_apply m c t (ix2 p k) (ix2 (⟨t.val * 1024 + p.val, hr⟩ : Fin 65536) k) rfl rfl
  · exact (weightBlock_apply m c t _).trans (weightS_at m c k q)
  · exact (biasBlock_apply m c t _).trans (biasS_at m c q)

/-- The same, as one function of the block's index. -/
theorem blockS_fun (c : Dev nD) (t : Fin cfg0.N) :
    (k0_pay3 (F := Ideal) (iblk m c 0 t) (iblk m c 1 t) (iblk m c 2 t) (iblk m c 3 t) : S1024x512.Idx → EReal)
      = fun j => GS m c (((cfg0.win 5).blk t).view.emb j) :=
  funext (blockS m c t)

/-- Writing back a block that holds an array's entries at the block's places is reading the block off that array. -/
theorem cut_readS (t : Fin cfg0.N) (G : S65536x512.Idx → EReal) :
    (cfg0.win 5).cut (grid0.coords t) (fun j => G (((cfg0.win 5).blk t).view.emb j)) = ((cfg0.win 5).blk t).view.read (Elt Ideal) G := rfl

/-- What point t writes back to result S is block t of the gate. -/
theorem flushedS_eq (c : Dev nD) (t : Fin cfg0.N) :
    (dats m 0 c).flushed 5 t = ((cfg0.win 5).blk t).view.read (Elt Ideal) (GS m c) := by
  show (cfg0.win 5).cut (grid0.coords t) ((dats m 0 c).after 5 t) = _
  rw [after5]
  unfold outS
  rw [View.canon_unit_zero hz]
  simp only [View.ld_unit_zero (S := S1024x1024) hz, View.ld_unit_zero (S := S1024x1) hz, View.ld_unit_zero (S := S1024x1536) hz,
    View.ld_unit_zero (S := S1x1536) hz]
  rw [blockS_fun m c t]
  exact cut_readS t (GS m c)

/-- An index of result S's array is in point t's block iff each coordinate is in the block's range on its axis. -/
theorem mem_blkS (t : Fin cfg0.N) (i : S65536x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v19_1).slice (win0_5.rect t)).set ↔ _
  rw [View.set_slice_whole, Rect.mem_set_unit]
  exact Iff.rfl

/-- Row r of result S is in the block of point r / 1024. -/
theorem coverS (i : S65536x512.Idx) : ∃ t : Fin cfg0.N, (cfg0.win 5).flush t = true ∧ i ∈ ((cfg0.win 5).blk t).view.set := by
  have hi0 : (i 0).val < 65536 := (i 0).isLt
  have hi1 : (i 1).val < 512 := (i 1).isLt
  have hN : cfg0.N = 64 := N_0
  obtain ⟨t, ht⟩ : ∃ t : Fin cfg0.N, t.val = (i 0).val / 1024 := ⟨⟨(i 0).val / 1024, by rw [hN]; omega⟩, rfl⟩
  have e0 : win0_5.index t (0 : Fin 2) = t.val := by have := idx_facts t; tauto
  have e1 : win0_5.index t (1 : Fin 2) = 0 := by have := idx_facts t; tauto
  refine ⟨t, flush0_5 t, ?_⟩
  rw [mem_blkS]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 512 ≤ (i 1).val ∧ (i 1).val < win0_5.index t (1 : Fin 2) * 512 + 512; rw [e1]; omega

/-- Result S's array after the run is the gate. -/
theorem finalS (c : Dev nD) : (dats m 0 c).arrAt 5 cfg0.N = GS m c :=
  (dats m 0 c).arrAt_eq_of_cover 5 (GS m c) (fun t _ => flushedS_eq m c t) coverS

/-! ## Result K -/

/-- The gate result K ends holding, over the region-entry arrays. -/
abbrev GK (c : Dev nD) : S65536x512.Idx → EReal :=
  gate (V m c main_v7 : S65536x1.Idx → EReal) (V m c main_v14 : S65536x1024.Idx → EReal)
    ((m ((c : Thread nD τ).loc main_arg7)) : S1024x512.Idx → EReal) ((m ((c : Thread nD τ).loc main_arg8)) : S512.Idx → EReal)

/-- Entry j of what the body stores for result K at point t is the gate at the entry of the array that j's place in
    block t is. -/
theorem blockK (c : Dev nD) (t : Fin cfg0.N) (j : S1024x512.Idx) :
    k0_pay4 (F := Ideal) (iblk m c 0 t) (iblk m c 1 t) (iblk m c 2 t) (iblk m c 3 t) j
      = GK m c (((cfg0.win 6).blk t).view.emb j) := by
  obtain ⟨p, q, rfl⟩ : ∃ (p : Fin 1024) (q : Fin 512), j = ix2 p q := ⟨j 0, j 1, eq_ix2 j⟩
  have hN : cfg0.N = 64 := N_0
  have ht : t.val < 64 := hN ▸ t.isLt
  have hr : t.val * 1024 + p.val < 65536 := by have := p.isLt; omega
  have hemb : ((cfg0.win 6).blk t).view.emb (ix2 p q) = ix2 (⟨t.val * 1024 + p.val, hr⟩ : Fin 65536) q := by
    have e0 : win0_6.index t (0 : Fin 2) = t.val := by have := idx_facts t; tauto
    have e1 : win0_6.index t (1 : Fin 2) = 0 := by have := idx_facts t; tauto
    funext a; apply Fin.ext
    match a with
    | ⟨0, _⟩ => show win0_6.index t (0 : Fin 2) * 1024 + 1 * p.val = t.val * 1024 + p.val; rw [e0]; omega
    | ⟨1, _⟩ => show win0_6.index t (1 : Fin 2) * 512 + 1 * q.val = q.val; rw [e1]; omega
  rw [hemb]
  refine blockK_law (iblk m c 0 t) (iblk m c 1 t) (iblk m c 2 t) (iblk m c 3 t) _ _ _ _ p q ⟨t.val * 1024 + p.val, hr⟩ ?_ (fun k => ?_) (fun k => ?_) ?_
  · exact memBlock_apply m c t (ix2 p (0 : Fin 1)) (ix2 (⟨t.val * 1024 + p.val, hr⟩ : Fin 65536) (0 : Fin 1)) rfl rfl
  · exact embBlock_apply m c t (ix2 p k) (ix2 (⟨t.val * 1024 + p.val, hr⟩ : Fin 65536) k) rfl rfl
  · exact (weightBlock_apply m c t _).trans (weightK_at m c k q)
  · exact (biasBlock_apply m c t _).trans (biasK_at m c q)

/-- The same, as one function of the block's index. -/
theorem blockK_fun (c : Dev nD) (t : Fin cfg0.N) :
    (k0_pay4 (F := Ideal) (iblk m c 0 t) (iblk m c 1 t) (iblk m c 2 t) (iblk m c 3 t) : S1024x512.Idx → EReal)
      = fun j => GK m c (((cfg0.win 6).blk t).view.emb j) :=
  funext (blockK m c t)

/-- Writing back a block that holds an array's entries at the block's places is reading the block off that array. -/
theorem cut_readK (t : Fin cfg0.N) (G : S65536x512.Idx → EReal) :
    (cfg0.win 6).cut (grid0.coords t) (fun j => G (((cfg0.win 6).blk t).view.emb j)) = ((cfg0.win 6).blk t).view.read (Elt Ideal) G := rfl

/-- What point t writes back to result K is block t of the gate. -/
theorem flushedK_eq (c : Dev nD) (t : Fin cfg0.N) :
    (dats m 0 c).flushed 6 t = ((cfg0.win 6).blk t).view.read (Elt Ideal) (GK m c) := by
  show (cfg0.win 6).cut (grid0.coords t) ((dats m 0 c).after 6 t) = _
  rw [after6]
  unfold outK
  rw [View.canon_unit_zero hz]
  simp only [View.ld_unit_zero (S := S1024x1024) hz, View.ld_unit_zero (S := S1024x1) hz, View.ld_unit_zero (S := S1024x1536) hz,
    View.ld_unit_zero (S := S1x1536) hz]
  rw [blockK_fun m c t]
  exact cut_readK t (GK m c)

/-- An index of result K's array is in point t's block iff each coordinate is in the block's range on its axis. -/
theorem mem_blkK (t : Fin cfg0.N) (i : S65536x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v19_2).slice (win0_6.rect t)).set ↔ _
  rw [View.set_slice_whole, Rect.mem_set_unit]
  exact Iff.rfl

/-- Row r of result K is in the block of point r / 1024. -/
theorem coverK (i : S65536x512.Idx) : ∃ t : Fin cfg0.N, (cfg0.win 6).flush t = true ∧ i ∈ ((cfg0.win 6).blk t).view.set := by
  have hi0 : (i 0).val < 65536 := (i 0).isLt
  have hi1 : (i 1).val < 512 := (i 1).isLt
  have hN : cfg0.N = 64 := N_0
  obtain ⟨t, ht⟩ : ∃ t : Fin cfg0.N, t.val = (i 0).val / 1024 := ⟨⟨(i 0).val / 1024, by rw [hN]; omega⟩, rfl⟩
  have e0 : win0_6.index t (0 : Fin 2) = t.val := by have := idx_facts t; tauto
  have e1 : win0_6.index t (1 : Fin 2) = 0 := by have := idx_facts t; tauto
  refine ⟨t, flush0_6 t, ?_⟩
  rw [mem_blkK]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 512 ≤ (i 1).val ∧ (i 1).val < win0_6.index t (1 : Fin 2) * 512 + 512; rw [e1]; omega

/-- Result K's array after the run is the gate. -/
theorem finalK (c : Dev nD) : (dats m 0 c).arrAt 6 cfg0.N = GK m c :=
  (dats m 0 c).arrAt_eq_of_cover 6 (GK m c) (fun t _ => flushedK_eq m c t) coverK

/-! ## The run, read -/

/-- Every weakly fair execution of the idealized kernel's @main terminates with each result array at its gate of the
    reference's own stages of the node ids and the banks, and the arguments as launched. -/
theorem run : θ_run defs (onTc (τ := τ) (main (F := Ideal))) ⟨m, fun _ => 0, ρ⟩ fun r => ∀ c : Dev nD,
      r.2.mem ((c : Thread nD τ).loc main_v19_0) = gate (Cert.ReferenceIdeal.Read.val_main_v7 (F := Ideal) (m ((c : Thread nD τ).loc main_arg0)) (m ((c : Thread nD τ).loc main_arg1)))
          (Cert.ReferenceIdeal.Read.val_main_v14 (F := Ideal) (m ((c : Thread nD τ).loc main_arg0)) (m ((c : Thread nD τ).loc main_arg2)))
          ((m ((c : Thread nD τ).loc main_arg3)) : S1024x512.Idx → EReal) ((m ((c : Thread nD τ).loc main_arg4)) : S512.Idx → EReal)
      ∧ r.2.mem ((c : Thread nD τ).loc main_v19_1) = gate (Cert.ReferenceIdeal.Read.val_main_v7 (F := Ideal) (m ((c : Thread nD τ).loc main_arg0)) (m ((c : Thread nD τ).loc main_arg1)))
          (Cert.ReferenceIdeal.Read.val_main_v14 (F := Ideal) (m ((c : Thread nD τ).loc main_arg0)) (m ((c : Thread nD τ).loc main_arg2)))
          ((m ((c : Thread nD τ).loc main_arg5)) : S1024x512.Idx → EReal) ((m ((c : Thread nD τ).loc main_arg6)) : S512.Idx → EReal)
      ∧ r.2.mem ((c : Thread nD τ).loc main_v19_2) = gate (Cert.ReferenceIdeal.Read.val_main_v7 (F := Ideal) (m ((c : Thread nD τ).loc main_arg0)) (m ((c : Thread nD τ).loc main_arg1)))
          (Cert.ReferenceIdeal.Read.val_main_v14 (F := Ideal) (m ((c : Thread nD τ).loc main_arg0)) (m ((c : Thread nD τ).loc main_arg2)))
          ((m ((c : Thread nD τ).loc main_arg7)) : S1024x512.Idx → EReal) ((m ((c : Thread nD τ).loc main_arg8)) : S512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 4).trans ((finalQ m c).trans (by unfold GQ; rw [memSums_eq m c, embRows_eq m c])),
      ((h c).1 5).trans ((finalS m c).trans (by unfold GS; rw [memSums_eq m c, embRows_eq m c])),
      ((h c).1 6).trans ((finalK m c).trans (by unfold GK; rw [memSums_eq m c, embRows_eq m c])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.GateValue

end
-- ==== Proof.RefValue.lean ====
/-
  The reference program's three results are the three gates of its own stages: the column of memory sums and the gathered
  embedding rows, the weight matrices and the bias vectors.

  The reference adds the column of sums, broadcast along the lanes, to the gathered rows: that is the layer's input. Each
  result is then a dot_general with one weight plus its bias broadcast twice — the affine layer — followed by
  1 / (1 + exp (-·)) spelt with host operations, which is the logistic function at every extended real.
-/
import proofs.«139069_j75935021793842_2_alg».proof.Proof.Gen.ReferenceIdeal.Run
import proofs.«139069_j75935021793842_2_alg».proof.Proof.Gen.ReferenceIdeal.Read
import proofs.«139069_j75935021793842_2_alg».proof.Proof.GateSpec

noncomputable section

namespace Cert.ReferenceIdeal.RefValue

open Cert.ReferenceIdeal Cert.ReferenceIdeal.Gen Cert.ReferenceIdeal.Read
open Idealize.ShloMosaic Idealize.ShloMosaic.ValueIdx Cert.LibDenseLayers Cert.NodeGates

variable (x0 : (⟨S65536, .i32⟩ : BufTy).Contents (Elt Ideal)) (x1 : (⟨S100000x1x1024, .f32⟩ : BufTy).Contents (Elt Ideal))
  (x2 : (⟨S100000x1024, .f32⟩ : BufTy).Contents (Elt Ideal))

/-- The sum of the broadcast column and the gathered rows is the layer's input. -/
theorem input_eq : val_main_v16 (F := Ideal) x0 x1 x2
    = layerIn (val_main_v7 (F := Ideal) x0 x1) (val_main_v14 (F := Ideal) x0 x2) := by
  funext i
  obtain ⟨p, k, rfl⟩ : ∃ (p : Fin 65536) (k : Fin 1024), i = ix2 p k := ⟨i 0, i 1, eq_ix2 i⟩
  rw [val_main_v16_apply, val_main_v15_apply]
  have e : idx_main_v15 (ix2 p k) = ix2 p (0 : Fin 1) := funext fun a => Fin.ext (by
    match a with
    | ⟨0, _⟩ => rfl
    | ⟨1, _⟩ => rfl)
  rw [e]
  rfl

/-- The first result is the gate of its weight and bias. -/
theorem gateQ_eq (x3 : (⟨S1024x512, .f32⟩ : BufTy).Contents (Elt Ideal)) (x4 : (⟨S512, .f32⟩ : BufTy).Contents (Elt Ideal)) :
    val_main_v26 (F := Ideal) x0 x1 x2 x3 x4
      = gate (val_main_v7 (F := Ideal) x0 x1) (val_main_v14 (F := Ideal) x0 x2) x3 x4 := by
  have haff : val_main_v20 (F := Ideal) x0 x1 x2 x3 x4 = affine (val_main_v16 (F := Ideal) x0 x1 x2) x3 x4 := by
    unfold val_main_v20 val_main_v17 val_main_v19 val_main_v18
    exact affine_of_dot (by decide) dot_S65536x1024_S1024x512_S65536x512_1_0_0_1_n_n rfl rfl lhs_main_v17_0 lhs_main_v17_1
      rhs_main_v17_0 rhs_main_v17_1 bcast_S512_S1x512_1 bcast_S1x512_S65536x512_0_1 _ x3 x4
  funext i
  obtain ⟨p, q, rfl⟩ : ∃ (p : Fin 65536) (q : Fin 512), i = ix2 p q := ⟨i 0, i 1, eq_ix2 i⟩
  rw [val_main_v26_apply, val_main_v25_apply, val_main_cst_4_apply, val_main_v24_apply, val_main_v23_apply, val_main_cst_3_apply,
    val_main_v22_apply, val_main_v21_apply, haff, input_eq]
  exact logistic_host _

/-- The second result is the gate of its weight and bias. -/
theorem gateS_eq (x5 : (⟨S1024x512, .f32⟩ : BufTy).Contents (Elt Ideal)) (x6 : (⟨S512, .f32⟩ : BufTy).Contents (Elt Ideal)) :
    val_main_v36 (F := Ideal) x0 x1 x2 x5 x6
      = gate (val_main_v7 (F := Ideal) x0 x1) (val_main_v14 (F := Ideal) x0 x2) x5 x6 := by
  have haff : val_main_v30 (F := Ideal) x0 x1 x2 x5 x6 = affine (val_main_v16 (F := Ideal) x0 x1 x2) x5 x6 := by
    unfold val_main_v30 val_main_v27 val_main_v29 val_main_v28
    exact affine_of_dot (by decide) dot_S65536x1024_S1024x512_S65536x512_1_0_0_1_n_n rfl rfl lhs_main_v27_0 lhs_main_v27_1
      rhs_main_v27_0 rhs_main_v27_1 bcast_S512_S1x512_1 bcast_S1x512_S65536x512_0_1 _ x5 x6
  funext i
  obtain ⟨p, q, rfl⟩ : ∃ (p : Fin 65536) (q : Fin 512), i = ix2 p q := ⟨i 0, i 1, eq_ix2 i⟩
  rw [val_main_v36_apply, val_main_v35_apply, val_main_cst_6_apply, val_main_v34_apply, val_main_v33_apply, val_main_cst_5_apply,
    val_main_v32_apply, val_main_v31_apply, haff, input_eq]
  exact logistic_host _

/-- The third result is the gate of its weight and bias. -/
theorem gateK_eq (x7 : (⟨S1024x512, .f32⟩ : BufTy).Contents (Elt Ideal)) (x8 : (⟨S512, .f32⟩ : BufTy).Contents (Elt Ideal)) :
    val_main_v46 (F := Ideal) x0 x1 x2 x7 x8
      = gate (val_main_v7 (F := Ideal) x0 x1) (val_main_v14 (F := Ideal) x0 x2) x7 x8 := by
  have haff : val_main_v40 (F := Ideal) x0 x1 x2 x7 x8 = affine (val_main_v16 (F := Ideal) x0 x1 x2) x7 x8 := by
    unfold val_main_v40 val_main_v37 val_main_v39 val_main_v38
    exact affine_of_dot (by decide) dot_S65536x1024_S1024x512_S65536x512_1_0_0_1_n_n rfl rfl lhs_main_v37_0 lhs_main_v37_1
      rhs_main_v37_0 rhs_main_v37_1 bcast_S512_S1x512_1 bcast_S1x512_S65536x512_0_1 _ x7 x8
  funext i
  obtain ⟨p, q, rfl⟩ : ∃ (p : Fin 65536) (q : Fin 512), i = ix2 p q := ⟨i 0, i 1, eq_ix2 i⟩
  rw [val_main_v46_apply, val_main_v45_apply, val_main_cst_8_apply, val_main_v44_apply, val_main_v43_apply, val_main_cst_7_apply,
    val_main_v42_apply, val_main_v41_apply, haff, input_eq]
  exact logistic_host _

end Cert.ReferenceIdeal.RefValue

end
-- ==== Proof.lean ====
/-
  The five claims about the node-update gates: q, s and k, each the logistic function of an affine layer of
  (memory sum of the node) + (embedding row of the node), for a batch of 65536 node ids.

  Frames. The kernel's @main is a stretch of host operations and one pipelined region over 64 blocks of 1024 batch rows whose
  body overwrites its three output blocks whole (KernelFrame, KernelIdealFrame: one text at the two instances). The
  reference is host operations only, and its frame is its run with the results dropped.
  Preserves. The idealization rewrote no operation, so there is nothing to state.
  Algebraic. On extended reals the kernel's three result arrays end at the three gates of the region-entry arrays
  (GateValue, over BlockGate and EntryArrays), the column of memory sums and the gathered rows being the reference's own
  stages of the ids and the banks; the reference's results are the same three gates of the same stages (RefValue). The
  kernel's one matrix product with the three weights joined along the columns, read 512 columns at a time, is the
  reference's three products; no law of arithmetic beyond re-indexing finite sums joins the two sides, so the finiteness
  of the inputs is never used.
-/
import proofs.«139069_j75935021793842_2_alg».proof.Defs
import proofs.«139069_j75935021793842_2_alg».proof.Proof.Gen.Kernel
import proofs.«139069_j75935021793842_2_alg».proof.Proof.Gen.KernelIdeal
import proofs.«139069_j75935021793842_2_alg».proof.Proof.Gen.ReferenceIdeal
import proofs.«139069_j75935021793842_2_alg».proof.Proof.Gen.ReferenceIdeal.Run
import proofs.«139069_j75935021793842_2_alg».proof.Proof.Gen.ReferenceIdeal.Read
import proofs.«139069_j75935021793842_2_alg».proof.Proof.Gen.Pre_finite_inputs
import proofs.«139069_j75935021793842_2_alg».proof.Proof.KernelFrame
import proofs.«139069_j75935021793842_2_alg».proof.Proof.KernelIdealFrame
import proofs.«139069_j75935021793842_2_alg».proof.Proof.GateValue
import proofs.«139069_j75935021793842_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs, from memories agreeing on the arguments, end with their results at the three gates of the reference's
    stages of the node ids and the two banks. -/
theorem algebraic : Cert.algebraic_KernelIdeal_ReferenceIdeal := by
  intro m ρ m' ρ' _ hagree
  refine ⟨_, _, _, Cert.KernelIdeal.GateValue.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8⟩ := hagree c
  refine ⟨h0.trans ?_, h1.trans ?_, h2.trans ?_, hargs⟩
  · rw [Cert.ReferenceIdeal.Read.val_main_v26_eq, Cert.ReferenceIdeal.RefValue.gateQ_eq, a0, a1, a2, a3, a4]
  · rw [Cert.ReferenceIdeal.Read.val_main_v36_eq, Cert.ReferenceIdeal.RefValue.gateS_eq, a0, a1, a2, a5, a6]
  · rw [Cert.ReferenceIdeal.Read.val_main_v46_eq, Cert.ReferenceIdeal.RefValue.gateK_eq, a0, a1, a2, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
